-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000x128 : Shape := ⟨2, ![1000, 128]⟩
abbrev S_ : Shape := ⟨0, ![]⟩

class Facts : Prop where
  bcast_S_S1000x128 : S_.BroadcastsInDim S1000x128 (![] : Fin 0 → Fin S1000x128.rank)
  reducesTo_S1000x128_S_d0_1 : S1000x128.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S1000x128 .f32) : IVec S_ 1 :=
  let main_v0 : FVec F S1000x128 .f32 := Host.absf main_arg1
  let main_cst : FVec F S_ .f32 := constant S_ .f32 0x7F800000#32
  let main_v1 : FVec F S1000x128 .f32 := broadcastInDim S1000x128 ![] bcast_S_S1000x128 main_cst
  let main_v2 : IVec S1000x128 1 := cmpf .olt main_v0 main_v1
  let main_c : IVec S_ 1 := constantI S_ 1 1#1
  let main_v3 : IVec S_ 1 := (fun x v => Host.reduce IntOp.andi x v reducesTo_S1000x128_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 999#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384 : Shape := ⟨1, ![16384]⟩
abbrev S1000x128 : Shape := ⟨2, ![1000, 128]⟩
abbrev S16384x128 : Shape := ⟨2, ![16384, 128]⟩
abbrev S512 : Shape := ⟨1, ![512]⟩
abbrev S512x128 : Shape := ⟨2, ![512, 128]⟩
abbrev S_ : Shape := ⟨0, ![]⟩
abbrev S64x128 : Shape := ⟨2, ![64, 128]⟩
abbrev S64 : Shape := ⟨1, ![64]⟩

abbrev nBuf : Table → Nat
  | .hbm => 3
  | .shared => 1
  | .local .scVector .vmem => 2
  | _ => 0

abbrev bufTy : (tb : Table) → Fin (nBuf tb) → BufTy
  | .hbm, ⟨0, _⟩ => ⟨S16384, .i32⟩
  | .hbm, ⟨1, _⟩ => ⟨S1000x128, .f32⟩
  | .hbm, ⟨2, _⟩ => ⟨S16384x128, .f32⟩
  | .shared, ⟨0, _⟩ => ⟨S1000x128, .f32⟩
  | .local .scVector .vmem, ⟨0, _⟩ => ⟨S512, .i32⟩
  | .local .scVector .vmem, ⟨1, _⟩ => ⟨S512x128, .f32⟩
  | _, _ => ⟨S16384, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 5 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch2 : Ref sig .scVector := ⟨.shared, 0, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) (c0_i32_39 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v33 : BitVec 32 := Scalar.addi v2 c0_i32_39
  let c0_i32_42 : BitVec 32 := 0#32
  ![v33.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S512x128_S64x128_0_0 : ∀ a, (![0, 0] : Fin 2 → Nat) a + S64x128.size a ≤ S512x128.size a
  inb_S512_S64_0 : ∀ a, (![0] : Fin 1 → Nat) a + S64.size a ≤ S512.size a
  inb_S1000x128_S1000x128_0_0 : ∀ a, (![0, 0] : Fin 2 → Nat) a + S1000x128.size a ≤ S1000x128.size a
  gathers_S1000x128_S64x128 : S1000x128.Gathers 0 S64x128
  inb_S512x128_S64x128_64_0 : ∀ a, (![64, 0] : Fin 2 → Nat) a + S64x128.size a ≤ S512x128.size a
  inb_S512_S64_64 : ∀ a, (![64] : Fin 1 → Nat) a + S64.size a ≤ S512.size a
  inb_S512x128_S64x128_128_0 : ∀ a, (![128, 0] : Fin 2 → Nat) a + S64x128.size a ≤ S512x128.size a
  inb_S512_S64_128 : ∀ a, (![128] : Fin 1 → Nat) a + S64.size a ≤ S512.size a
  inb_S512x128_S64x128_192_0 : ∀ a, (![192, 0] : Fin 2 → Nat) a + S64x128.size a ≤ S512x128.size a
  inb_S512_S64_192 : ∀ a, (![192] : Fin 1 → Nat) a + S64.size a ≤ S512.size a
  inb_S512x128_S64x128_256_0 : ∀ a, (![256, 0] : Fin 2 → Nat) a + S64x128.size a ≤ S512x128.size a
  inb_S512_S64_256 : ∀ a, (![256] : Fin 1 → Nat) a + S64.size a ≤ S512.size a
  inb_S512x128_S64x128_320_0 : ∀ a, (![320, 0] : Fin 2 → Nat) a + S64x128.size a ≤ S512x128.size a
  inb_S512_S64_320 : ∀ a, (![320] : Fin 1 → Nat) a + S64.size a ≤ S512.size a
  inb_S512x128_S64x128_384_0 : ∀ a, (![384, 0] : Fin 2 → Nat) a + S64x128.size a ≤ S512x128.size a
  inb_S512_S64_384 : ∀ a, (![384] : Fin 1 → Nat) a + S64.size a ≤ S512.size a
  inb_S512x128_S64x128_448_0 : ∀ a, (![448, 0] : Fin 2 → Nat) a + S64x128.size a ≤ S512x128.size a
  inb_S512_S64_448 : ∀ a, (![448] : Fin 1 → Nat) a + S64.size a ≤ S512.size a
  hcc0_scratch3 : 0 + S_.numel ≤ 11
  hcc0_scratch4 : 1 + S_.numel ≤ 11
  hcc0_scratch5 : 2 + S_.numel ≤ 11
  hcc0_scratch6 : 3 + S_.numel ≤ 11
  hcc0_scratch7 : 4 + S_.numel ≤ 11
  hcc0_scratch8 : 5 + S_.numel ≤ 11
  hcc0_scratch9 : 6 + S_.numel ≤ 11
  hcc0_scratch10 : 7 + S_.numel ≤ 11
  hcc0_scratch11 : 8 + S_.numel ≤ 11
  hcc0_scoped0 : 9 + S_.numel ≤ 11
  hcc0_scoped1 : 10 + S_.numel ≤ 11
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ (r : Fin 8), ∀ a, (k0_off2 i (BitVec.ofNat 32 (64 * r.val))) a + S64x128.size a ≤ S16384x128.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scratch7 : DmaSems sig S_ := SemArray.consecutive 4 S_ hcc0_scratch7
abbrev cc0_scratch8 : DmaSems sig S_ := SemArray.consecutive 5 S_ hcc0_scratch8
abbrev cc0_scratch9 : DmaSems sig S_ := SemArray.consecutive 6 S_ hcc0_scratch9
abbrev cc0_scratch10 : DmaSems sig S_ := SemArray.consecutive 7 S_ hcc0_scratch10
abbrev cc0_scratch11 : DmaSems sig S_ := SemArray.consecutive 8 S_ hcc0_scratch11
abbrev cc0_scoped0 : DmaSems sig S_ := SemArray.consecutive 9 S_ hcc0_scoped0
abbrev cc0_scoped1 : DmaSems sig S_ := SemArray.consecutive 10 S_ hcc0_scoped1

class Facts : Prop extends Facts₀ where

variable [Facts]
-- ==== ReferenceIdeal.lean ====
abbrev S16384 : Shape := ⟨1, ![16384]⟩
abbrev S1000x128 : Shape := ⟨2, ![1000, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000x128, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x128, .f32⟩
  | .hbm, ⟨21, _⟩ => ⟨S16384x128, .i1⟩
  | .hbm, ⟨22, _⟩ => ⟨S_, .f32⟩
  | .hbm, ⟨23, _⟩ => ⟨S16384x128, .f32⟩
  | .hbm, ⟨24, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  gather_S1000x128_S16384x1_S16384x128_1_0_n_n_0_1_1128_wf : GatherDims.WF S1000x128 S16384x1 S16384x128 [1] [0] [] [0] [] 1 ![1, 128]

variable [Facts₀]

def gather_S1000x128_S16384x1_S16384x128_1_0_n_n_0_1_1128 : GatherDims S1000x128 S16384x1 S16384x128 where
  offsetDims := [1]
  collapsedSliceDims := [0]
  operandBatchingDims := []
  startIndicesBatchingDims := []
  startIndexMap := [0]
  indexVectorDim := 1
  sliceSizes := ![1, 128]
  wf := gather_S1000x128_S16384x1_S16384x128_1_0_n_n_0_1_1128_wf

class Facts : Prop extends Facts₀ where

variable [Facts]
-- ==== Proof.PreRange.lean ====
/-
  The precondition's index range, read back. The predicate ends in the conjunction of two reductions by
  "and" to a single bit: the first over the table (every entry finite), the second over the index vector, whose
  r-th bit is "0 ≤ x[r] and x[r] ≤ 999", both comparisons signed. Where the predicate is 1 the second reduction
  is 1, so each of its bits is 1, so each index word read as a signed number lies in [0, 999]; a word whose signed
  reading is nonnegative has that same number as its unsigned reading, which is therefore below 1000.
-/
import proofs.«203007_g6863357739279_cont_9to1c4b_879_17_alg».proof.Pre_input_domain
import proofs.«203007_g6863357739279_cont_9to1c4b_879_17_alg».proof.Proof.Gen.Pre_input_domain
import Idealize.ShloMosaic.Lib.ReduceAll
import Idealize.ShloMosaic.Lib.ValueIdx

namespace Cert.PreRange

open Idealize.ShloMosaic Idealize.ShloMosaic.ValueIdx

/-- The scalar shape has one index. -/
instance : Subsingleton Cert.Pre_input_domain.S_.Idx := ⟨fun _ _ => funext fun d => d.elim0⟩

/-- A word whose signed reading is nonnegative has that reading as its unsigned value. -/
theorem toNat_of_toInt_nonneg (w : BitVec 32) (h : 0 ≤ w.toInt) : (w.toNat : Int) = w.toInt := by
  have h32 := w.isLt
  rw [BitVec.toInt_eq_toNat_cond] at h ⊢
  split at h <;> rename_i hc <;> simp only [hc, if_true, if_false] <;> omega

/-- Where the predicate holds, every index word read signed lies in [0, 999]. -/
theorem idx_range {F : FTy → Type} [FloatOps F] (x : IVec Cert.Pre_input_domain.S16384 32)
    (tbl : FVec F Cert.Pre_input_domain.S1000x128 .f32)
    (h : Cert.Pre_input_domain.fn (F := F) x tbl = fun _ => 1#1) : ∀ r, 0 ≤ (x r).toInt ∧ (x r).toInt ≤ 999 := by
  intro r
  have e := congrFun h ix0
  dsimp only [Cert.Pre_input_domain.fn] at e
  -- the predicate is the "and" of the two reductions; the second one is over the index vector
  have e2 := (IntOp.andi_eq_one.1 e).2
  -- a reduction by "and" to one bit that is 1 met a 1 at every index
  have e3 := Host.reduce_andi_all _ _ _ _ _ e2 r
  -- the bit at r is the "and" of the two signed comparisons
  obtain ⟨h0, h9⟩ := IntOp.andi_eq_one.1 e3
  have h0' : (0#32 : BitVec 32).toInt ≤ (x r).toInt := IntOp.cmpi_sge.1 h0
  have h9' : (x r).toInt ≤ (999#32 : BitVec 32).toInt := IntOp.cmpi_sle.1 h9
  have z : (0#32 : BitVec 32).toInt = 0 := by decide
  have n : (999#32 : BitVec 32).toInt = 999 := by decide
  rw [z] at h0'
  rw [n] at h9'
  exact ⟨h0', h9'⟩

/-- Where the predicate holds, every index word read unsigned is below 1000. -/
theorem idx_lt {F : FTy → Type} [FloatOps F] (x : IVec Cert.Pre_input_domain.S16384 32)
    (tbl : FVec F Cert.Pre_input_domain.S1000x128 .f32)
    (h : Cert.Pre_input_domain.fn (F := F) x tbl = fun _ => 1#1) : ∀ r, (x r).toNat < 1000 := by
  intro r
  obtain ⟨h0, h9⟩ := idx_range x tbl h r
  have := toNat_of_toInt_nonneg (x r) h0
  omega

end Cert.PreRange
-- ==== Proof.Lookup.lean ====
/-
  The function both programs compute: an embedding lookup. Row `r` of the result is the row of the table
  that the `r`-th index names — `out[r, c] = tbl[x[r], c]` — for 16384 indices into a table of 1000 rows of
  128 entries. The index word is read as an unsigned number and capped at the last row, so that the
  function is total; where every index lies in `[0, 999]` the cap never acts and the signed and unsigned
  readings of the word agree.
-/
import Idealize.ShloMosaic.Lib.ValueIdx

noncomputable section

namespace Cert.Lookup

open Idealize.ShloMosaic Idealize.ShloMosaic.ValueIdx

/-- The row of the table that index word `w` names: its unsigned value, capped at the last row. -/
def rowOf (w : BitVec 32) : Fin 1000 := ⟨min w.toNat 999, by omega⟩

/-- A word below 1000 names the row of its own value. -/
theorem rowOf_val_of_lt {w : BitVec 32} (h : w.toNat < 1000) : (rowOf w).val = w.toNat := by
  show min w.toNat 999 = w.toNat
  omega

/-- The lookup: entry `(r, c)` of the result is entry `(x[r], c)` of the table. -/
def rows {α : Type} (x : IVec ⟨1, ![16384]⟩ 32) (tbl : (⟨2, ![1000, 128]⟩ : Shape).Idx → α) :
    (⟨2, ![16384, 128]⟩ : Shape).Idx → α :=
  fun i => tbl (ix2 (rowOf (x (ix1 (⟨(i 0).val, idx2_lt0 i⟩ : Fin 16384)))) (⟨(i 1).val, idx2_lt1 i⟩ : Fin 128))

/-- The lookup read at coordinates. -/
theorem rows_apply {α : Type} (x : IVec ⟨1, ![16384]⟩ 32) (tbl : (⟨2, ![1000, 128]⟩ : Shape).Idx → α)
    (r : Fin 16384) (c : Fin 128) :
    rows x tbl (ix2 r c) = tbl (ix2 (rowOf (x (ix1 r))) c) := rfl

end Cert.Lookup

end
-- ==== Proof.RefRun.lean ====
/-
  The reference's run and its value. The program is one call of a lookup function: it wraps negative indices by the
  table height (a select, itself an inner call), lays the indices out as a column, gathers one table row per index —
  the start index read signed and capped so that the row lies in the table — and keeps the gathered row where the
  start index lies in [0, 999], the NaN word elsewhere. With the calls unfolded the program is a straight line of
  twenty-three host operations; its run leaves each buffer at the fold of the operations over the launch contents,
  and the fold at the result buffer is a composed term of the two arguments. Where every index lies in [0, 999],
  read signed, that term is the lookup: no index is negative, so none is wrapped; every row's range bit is 1, so the
  NaN word is never chosen; and a nonnegative signed reading is the word's unsigned value, so the capped signed
  start is the row the lookup names. No float arithmetic is involved.
-/
import proofs.«203007_g6863357739279_cont_9to1c4b_879_17_alg».proof.ReferenceIdeal
import proofs.«203007_g6863357739279_cont_9to1c4b_879_17_alg».proof.Proof.Gen.ReferenceIdeal
import proofs.«203007_g6863357739279_cont_9to1c4b_879_17_alg».proof.Proof.Lookup
import Idealize.ShloMosaic.Lib.StableHlo.Run
import Idealize.ShloMosaic.Lib.ValueIdx
import Idealize.ShloMosaic.Lib.Affine
import Idealize.ShloMosaic.PureOps.Reduce

noncomputable section

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx

variable {F : FTy → Type} [FloatOps F]

/-- The straight line of host operations the program runs: the lookup function's operations in order over the
    buffers of its one call, the wrap of negative indices (a select between the index plus the table height and
    the index itself) listed where it is called, over the buffers of that inner call. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S1000x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select ]

set_option maxRecDepth 1024 in
/-- The program is that straight line: the two functions' definitions unfolded where they are called and the
    records at their fields, both sides are one chain of steps once sequencing is reassociated. -/
theorem main_eq (c : Dev nD) : main (F := F) c = seq ops := by
  simp only [main, fn_take.body, fn_where.body, seq, bind_assoc, pure_bind]

/-- The start indices the gather reads: the index vector with negative entries wrapped by the table height, laid
    out as a column. -/
def startIdx (x : IVec S16384 32) : IVec S16384x1 32 :=
  broadcastInDim S16384x1 ![0] bcast_S16384_S16384x1_0
    (select (cmpi .slt x (broadcastInDim S16384 ![] bcast_S_S16384 (constantI S_ 32 0#32)))
      (addi x (broadcastInDim S16384 ![] bcast_S_S16384 (constantI S_ 32 1000#32))) x)

/-- Row by row, whether the start index lies in [0, 999]: the "and" of the two comparisons, reduced over the
    column's one entry. -/
def inRange (x : IVec S16384 32) : IVec S16384 1 :=
  Host.reduce IntOp.andi
    (andi (cmpi .sge (startIdx x) (broadcastInDim S16384x1 ![] bcast_S_S16384x1 (constantI S_ 32 0#32)))
      (cmpi .sle (startIdx x) (broadcastInDim S16384x1 ![0, 1] bcast_S1x1_S16384x1_0_1
        (broadcastInDim S1x1 ![1] bcast_S1_S1x1_1 (constantI S1 32 999#32)))))
    (constantI S_ 1 1#1) reducesTo_S16384x1_S16384_d1 h_S_

/-- What the line leaves in the result: the gathered rows where the start index is in range, the NaN word
    elsewhere. -/
def out (x : IVec S16384 32) (tbl : FVec F S1000x128 .f32) : FVec F S16384x128 .f32 :=
  select (broadcastInDim S16384x128 ![0] bcast_S16384_S16384x128_0 (inRange x))
    (Host.gather gather_S1000x128_S16384x1_S16384x128_1_0_n_n_0_1_1128 tbl (startIdx x))
    (broadcastInDim S16384x128 ![] bcast_S_S16384x128 (constant S_ .f32 0x7FC00000#32))

attribute [local irreducible] Host.reduce Host.gather in
set_option maxRecDepth 8192 in
set_option maxHeartbeats 4000000 in
/-- The fold of the operations at the result buffer is `out` of the two arguments' contents: each operation's
    result is its function of the contents of the buffers it reads, every other buffer keeps what it held, and the
    moves between a reference's carried type and its buffer's type are the identity at these literal references. -/
theorem out_eq (V : Valuation τ sig (Elt F)) :
    after ops V (main_v0 : DevRef τ sig) = out (V (main_arg0 : DevRef τ sig)) (V (main_arg1 : DevRef τ sig)) := by
  unfold out inRange startIdx
  simp only [after_cons, after_nil]
  rfl

/-- No operation writes the index vector. -/
theorem arg0_eq (V : Valuation τ sig (Elt F)) :
    after ops V (main_arg0 : DevRef τ sig) = V (main_arg0 : DevRef τ sig) := by
  simp only [after_cons, after_nil]
  rfl

/-- No operation writes the table. -/
theorem arg1_eq (V : Valuation τ sig (Elt F)) :
    after ops V (main_arg1 : DevRef τ sig) = V (main_arg1 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- From any memory with zero counters, for any float values: every weakly fair execution of the program
    terminates, and every final state has each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The composed term read index by index -/

/-- A vector laid out as a column, read at an entry of the column, is the vector at the entry's row. -/
theorem column_apply {α : Type} (w : S16384.Idx → α) (j : S16384x1.Idx) :
    broadcastInDim S16384x1 ![0] bcast_S16384_S16384x1_0 w j = w (ix1 (⟨(j 0).val, idx2_lt0 j⟩ : Fin 16384)) := by
  unfold broadcastInDim
  refine congrArg w (funext fun a => Fin.ext ?_)
  obtain rfl : a = 0 := Subsingleton.elim _ _
  rw [dif_neg (by decide)]
  rfl

/-- A vector repeated along every row, read at an entry, is the vector at the entry's row. -/
theorem rowwise_apply {α : Type} (w : S16384.Idx → α) (j : S16384x128.Idx) :
    broadcastInDim S16384x128 ![0] bcast_S16384_S16384x128_0 w j = w (ix1 (⟨(j 0).val, idx2_lt0 j⟩ : Fin 16384)) := by
  unfold broadcastInDim
  refine congrArg w (funext fun a => Fin.ext ?_)
  obtain rfl : a = 0 := Subsingleton.elim _ _
  rw [dif_neg (by decide)]
  rfl

/-- A nonnegative index is not wrapped: the select keeps the index itself. -/
theorem wrap_apply (x : IVec S16384 32) (i : S16384.Idx) (h0 : 0 ≤ (x i).toInt) :
    select (cmpi .slt x (broadcastInDim S16384 ![] bcast_S_S16384 (constantI S_ 32 0#32)))
      (addi x (broadcastInDim S16384 ![] bcast_S_S16384 (constantI S_ 32 1000#32))) x i = x i := by
  show Scalar.select (IntOp.cmpi .slt (x i) 0#32) (IntOp.addi (x i) 1000#32) (x i) = x i
  have hne : ¬ IntOp.cmpi .slt (x i) 0#32 = 1#1 := fun h => by
    have h1 := IntOp.cmpi_slt.1 h
    have z : (0#32 : BitVec 32).toInt = 0 := by decide
    omega
  rw [eq_zero_of_ne_one hne, select_zero]

/-- The start index at an entry of the column is the index word of the entry's row, when that word is nonnegative. -/
theorem startIdx_apply (x : IVec S16384 32) (j : S16384x1.Idx)
    (h0 : 0 ≤ (x (ix1 (⟨(j 0).val, idx2_lt0 j⟩ : Fin 16384))).toInt) :
    startIdx x j = x (ix1 (⟨(j 0).val, idx2_lt0 j⟩ : Fin 16384)) := by
  unfold startIdx
  rw [column_apply, wrap_apply x _ h0]

/-- A left fold by "and" from 1 over bits that are all 1 is 1. -/
theorem foldl_andi_one {ι : Type} (f : ι → BitVec 1) (hf : ∀ n, f n = 1#1) :
    ∀ (l : List ι), l.foldl (fun r n => IntOp.andi r (f n)) 1#1 = 1#1
  | [] => rfl
  | a :: l => by
    have e : IntOp.andi 1#1 (f a) = 1#1 := by rw [hf a]; decide
    show List.foldl (fun r n => IntOp.andi r (f n)) (IntOp.andi 1#1 (f a)) l = 1#1
    rw [e]
    exact foldl_andi_one f hf l

/-- With every index in [0, 999], every row is in range. -/
theorem inRange_apply (x : IVec S16384 32) (hx : ∀ r, 0 ≤ (x r).toInt ∧ (x r).toInt ≤ 999) (i : S16384.Idx) :
    inRange x i = 1#1 := by
  unfold inRange
  rw [Host.reduce_eq_foldl]
  refine foldl_andi_one _ (fun j => ?_) _
  show IntOp.andi (IntOp.cmpi .sge (startIdx x j) 0#32) (IntOp.cmpi .sle (startIdx x j) 999#32) = 1#1
  obtain ⟨h0, h9⟩ := hx (ix1 (⟨(j 0).val, idx2_lt0 j⟩ : Fin 16384))
  rw [startIdx_apply x j h0]
  have z : (0#32 : BitVec 32).toInt = 0 := by decide
  have n : (999#32 : BitVec 32).toInt = 999 := by decide
  exact IntOp.andi_eq_one.2 ⟨IntOp.cmpi_sge.2 (by rw [z]; exact h0), IntOp.cmpi_sle.2 (by rw [n]; exact h9)⟩

/-- The operand row the gather reads for entry (r, c): the start index of row r, read signed and capped at the
    last row (the collapsed axis carries the clamped start and no offset). -/
theorem gather_row_coord0 (v : IVec S16384x1 32) (r : Fin 16384) (c : Fin 128) :
    (gather_S1000x128_S16384x1_S16384x128_1_0_n_n_0_1_1128.operandIdx (ix2 r c) v (0 : Fin 2)).val
      = min (v (ix2 r (0 : Fin 1))).toInt.toNat 999 := by
  show gather_S1000x128_S16384x1_S16384x128_1_0_n_n_0_1_1128.start (ix2 r c) v (0 : Fin 2)
      + gather_S1000x128_S16384x1_S16384x128_1_0_n_n_0_1_1128.batchCoord (ix2 r c) (0 : Fin 2)
      + gather_S1000x128_S16384x1_S16384x128_1_0_n_n_0_1_1128.offCoord (ix2 r c) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S1000x128_S16384x1_S16384x128_1_0_n_n_0_1_1128.startIndexMap from
    List.mem_singleton.mpr rfl)]
  have hsi : gather_S1000x128_S16384x1_S16384x128_1_0_n_n_0_1_1128.siIdx (ix2 r c)
      ⟨List.idxOf (0 : Fin 2) gather_S1000x128_S16384x1_S16384x128_1_0_n_n_0_1_1128.startIndexMap,
        List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- The operand column the gather reads for entry (r, c) is c (the offset axis carries no start). -/
theorem gather_row_coord1 (v : IVec S16384x1 32) (r : Fin 16384) (c : Fin 128) :
    (gather_S1000x128_S16384x1_S16384x128_1_0_n_n_0_1_1128.operandIdx (ix2 r c) v (1 : Fin 2)).val = c.val := by
  show gather_S1000x128_S16384x1_S16384x128_1_0_n_n_0_1_1128.start (ix2 r c) v (1 : Fin 2)
      + gather_S1000x128_S16384x1_S16384x128_1_0_n_n_0_1_1128.batchCoord (ix2 r c) (1 : Fin 2)
      + gather_S1000x128_S16384x1_S16384x128_1_0_n_n_0_1_1128.offCoord (ix2 r c) (1 : Fin 2) = _
  have hn : (1 : Fin 2) ∉ gather_S1000x128_S16384x1_S16384x128_1_0_n_n_0_1_1128.startIndexMap := by decide
  have hk : (1 : Fin 2) ∈ gather_S1000x128_S16384x1_S16384x128_1_0_n_n_0_1_1128.sKept := by decide
  have hs : gather_S1000x128_S16384x1_S16384x128_1_0_n_n_0_1_1128.start (ix2 r c) v (1 : Fin 2) = 0 := by
    unfold GatherDims.start
    rw [dif_neg hn]
  have ho : gather_S1000x128_S16384x1_S16384x128_1_0_n_n_0_1_1128.offCoord (ix2 r c) (1 : Fin 2) = c.val := by
    unfold GatherDims.offCoord
    rw [dif_pos hk]
    rfl
  rw [GatherDims.batchCoord_eq_zero _ _ _ List.not_mem_nil, hs, ho, Nat.add_zero, Nat.zero_add]

/-- The row gather read at an entry: the table at the row the start index names — read signed and capped at the
    last row — and at the entry's own column. -/
theorem gather_row_apply {α : Type} (tbl : S1000x128.Idx → α) (v : IVec S16384x1 32) (r : Fin 16384) (c : Fin 128) :
    Host.gather gather_S1000x128_S16384x1_S16384x128_1_0_n_n_0_1_1128 tbl v (ix2 r c)
      = tbl (ix2 (⟨min (v (ix2 r (0 : Fin 1))).toInt.toNat 999, by omega⟩ : Fin 1000) c) := by
  unfold Host.gather
  refine congrArg tbl (funext fun a => Fin.ext ?_)
  match a with
  | ⟨0, _⟩ => exact gather_row_coord0 v r c
  | ⟨1, _⟩ => exact gather_row_coord1 v r c

/-- A word whose signed reading is nonnegative has that reading's natural number as its unsigned value. -/
theorem toInt_toNat_of_nonneg (w : BitVec 32) (h : 0 ≤ w.toInt) : w.toInt.toNat = w.toNat := by
  have h32 := w.isLt
  rw [BitVec.toInt_eq_toNat_cond] at h ⊢
  split at h <;> rename_i hc <;> simp only [hc, if_true, if_false] <;> omega

/-- THE VALUE: with every index in [0, 999] the composed term is the lookup. -/
theorem out_rows (x : IVec S16384 32) (tbl : FVec F S1000x128 .f32)
    (hx : ∀ r, 0 ≤ (x r).toInt ∧ (x r).toInt ≤ 999) : out x tbl = Cert.Lookup.rows x tbl := by
  funext j
  obtain ⟨r, c, rfl⟩ : ∃ (r : Fin 16384) (c : Fin 128), j = ix2 r c := ⟨j 0, j 1, eq_ix2 j⟩
  rw [Cert.Lookup.rows_apply]
  unfold out
  rw [select_apply, rowwise_apply, inRange_apply x hx, select_one, gather_row_apply]
  have h0 := (hx (ix1 r)).1
  have e : startIdx x (ix2 r (0 : Fin 1)) = x (ix1 r) := startIdx_apply x (ix2 r (0 : Fin 1)) h0
  refine congrArg tbl (funext fun a => ?_)
  match a with
  | ⟨0, _⟩ =>
    refine Fin.ext ?_
    show min (startIdx x (ix2 r (0 : Fin 1))).toInt.toNat 999 = min (x (ix1 r)).toNat 999
    rw [e, toInt_toNat_of_nonneg _ h0]
  | ⟨1, _⟩ => rfl

/-! ## The run -/

set_option maxRecDepth 8192 in
/-- THE REFERENCE'S RUN: from any memory whose index vector lies in [0, 999] on every device, every weakly fair
    execution terminates with the result buffer at the lookup of the table at the index vector, and the two
    arguments unchanged. -/
theorem run (m : (ℓ : Loc Cert.ReferenceIdeal.nD Cert.ReferenceIdeal.τ Cert.ReferenceIdeal.sig) → Buf (Elt Ideal) ℓ) (g : Dev Cert.ReferenceIdeal.nD → PrngReg)
    (hx : ∀ (c : Dev Cert.ReferenceIdeal.nD) r, 0 ≤ (m ((c.tc : Thread Cert.ReferenceIdeal.nD Cert.ReferenceIdeal.τ).loc Cert.ReferenceIdeal.main_arg0) r).toInt ∧ (m ((c.tc : Thread _ _).loc Cert.ReferenceIdeal.main_arg0) r).toInt ≤ 999) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v0)
            = Cert.Lookup.rows (m ((c.tc : Thread _ _).loc Cert.ReferenceIdeal.main_arg0)) (m ((c.tc : Thread _ _).loc Cert.ReferenceIdeal.main_arg1))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)) := by
  refine (θ_run (Cert.ReferenceIdeal.defs (F := Ideal)) _ _).mono (fun r h c => ?_) (run_main (F := Ideal) m g)
  have hv := (h c main_v0).trans (out_eq (launchContents m c))
  have ha0 := (h c main_arg0).trans (arg0_eq (launchContents m c))
  have ha1 := (h c main_arg1).trans (arg1_eq (launchContents m c))
  exact ⟨hv.trans (out_rows _ _ (hx c)), ha0, ha1⟩

end Cert.ReferenceIdeal.RefValue

end
-- ==== Proof.KICommon.lean ====
/-
  The lookup kernel's program as the launch theorem reads it, and what its threads hand one another.

  Thirty-two tasks — sixteen vector subcores on each of two cores — share the work: task `(c, j)` owns the 512
  consecutive indices from `1024 j + 512 c` on, in eight chunks of 64. On each core the task of subcore 0 first
  copies the whole table into the core's shared memory; every task copies its 512 indices into its own memory; all
  sixteen meet at the barrier; then each task gathers, chunk by chunk, the table rows its indices name out of the
  shared copy and stores each chunk of 64 rows to its place in the result.

  The result array is cut into 256 blocks of 64 rows, block `16 j + 8 c + r` being chunk `r` of task `(c, j)`.
  The indices and the table are only read: they travel as shares. The shared copy of the table is written by
  subcore 0 alone and read by all sixteen after the barrier: subcore 0's arrival at subcore `j`'s barrier cell
  hands over the `j`-th of sixteen shares of the filled copy.
-/
import proofs.«203007_g6863357739279_cont_9to1c4b_879_17_alg».proof.Defs
import Idealize.ShloMosaic.Lib.SparseCore.Launch
import Idealize.ShloMosaic.Lib.SparseCore.Ops
import Idealize.ShloMosaic.Lib.SparseCore.Stream
import Idealize.ShloMosaic.Lib.Batch
import Idealize.ShloMosaic.Lib.StableHlo.Run
import Idealize.ShloMosaic.Lib.Pipeline.Kit
import Idealize.ShloMosaic.Lib.Tactic
import proofs.«203007_g6863357739279_cont_9to1c4b_879_17_alg».proof.Proof.Gen.KernelIdeal
import proofs.«203007_g6863357739279_cont_9to1c4b_879_17_alg».proof.Proof.Gen.KernelIdeal.Skeleton
import proofs.«203007_g6863357739279_cont_9to1c4b_879_17_alg».proof.Proof.Lookup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The core of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory, the arrays, their blocks and shares -/

variable (m : (ℓ : Loc nD τ sig) → Buf (Elt F) ℓ) (ρ : Dev nD → PrngReg)

/-- The indices, the table and the result, in device `d`'s memory. -/
abbrev xLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

/-- Core `c`'s shared memory, as every vector subcore of it addresses it. -/
abbrev shRef (c : Fin τ.nSC) : DevRef τ sig := ⟨.shared, ⟨0, by decide⟩, c⟩
abbrev shLoc (d : Dev nD) (c : Fin τ.nSC) : Loc nD τ sig := (d, shRef c)

theorem nSub_eq : τ.nSub = 16 := rfl
theorem nSC_eq : τ.nSC = 2 := rfl

/-- The result's 16384 rows in 256 blocks of 64. -/
theorem hdivO : 256 ∣ S16384x128.size 0 := ⟨64, rfl⟩
abbrev oBlock (n : Fin 256) : Rect S16384x128 := Rect.part (s := S16384x128) (a₀ := 0) hdivO n
abbrev oSet (n : Fin 256) : Finset S16384x128.Idx := ((Memref.whole main_v0_scv : Memref sig .scVector .hbm S16384x128 .f32).view.slice (oBlock n)).set

/-- Chunk `r` of the task on subcore `j` of core `c` is block `16 j + 8 c + r`. -/
def blk (c : Fin 2) (j : Fin 16) (r : Fin 8) : Fin 256 := ⟨16 * j.val + 8 * c.val + r.val, by omega⟩

/-- Core `c`'s half of a read share, and subcore `j`'s sixteenth of that. -/
abbrev sh2 (c : Fin 2) : PosShare TreeShare := pieceOf fullShare 2 (by decide) c
abbrev sh32 (c : Fin 2) (j : Fin 16) : PosShare TreeShare := pieceOf (sh2 c) 16 (by decide) j
/-- Subcore `j`'s sixteenth of the shared copy of the table. -/
abbrev sh16 (j : Fin 16) : PosShare TreeShare := pieceOf fullShare 16 (by decide) j

/-- The table, as the contents of a core's shared memory. -/
abbrev tblSh (d : Dev nD) (c : Fin τ.nSC) : Buf (Elt F) (shLoc d c) := (m (tLoc d) : S1000x128.Idx → Elt F .f32)
/-- The lookup's result, as the contents of the result array. -/
abbrev want (d : Dev nD) : Buf (Elt F) (oLoc d) :=
  (Cert.Lookup.rows (m (xLoc d) : S16384.Idx → BitVec 32) (m (tLoc d) : S1000x128.Idx → Elt F .f32) : S16384x128.Idx → Elt F .f32)

variable [FloatOps F]

/-! ## The barrier cells -/

/-- Vector subcore `(c, j)`'s barrier semaphore on device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Subcore `j`'s share of the filled shared copy. -/
abbrev shPiece (d : Dev nD) (c : Fin τ.nSC) (j : Fin 16) : sProp 𝕄 := shLoc d c ↦{sh16 j} tblSh m d c

/-- What an arrival at subcore `j`'s cell hands over: subcore 0's, the `j`-th share of the filled shared copy; the others', nothing. -/
def bPay (g : GSem nD τ sig) (n : ℕ) : sProp 𝕄 :=
  match g with
  | ((d, .scVector c j), _) => if n = 0 then shPiece m d c (Fin.cast nSub_eq j) else iprop(emp)
  | _ => iprop(emp)

/-- The barrier cells' schedule: one round on each, of one unit arrival per subcore of the core (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) m).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a vector subcore owe for the barrier: one unit on every subcore's cell of its core, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A subcore's kit for the barrier: every cell invariant of its core and that each has reached round 0, its own position
    at the origin of round 0, its arrival token in every subcore's round 0, and the credit for the sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- A task's shares of the indices and of the table, and its eight blocks of the result at contents `f`. -/
abbrev xShare (d : Dev nD) (c : Fin 2) (j : Fin 16) : sProp 𝕄 := xLoc d ↦{sh32 c j} m (xLoc d)
abbrev tShare (d : Dev nD) (c : Fin 2) (j : Fin 16) : sProp 𝕄 := tLoc d ↦{sh32 c j} m (tLoc d)
abbrev oBlocks (d : Dev nD) (c : Fin 2) (j : Fin 16) (f : Buf (Elt F) (oLoc d)) : sProp 𝕄 :=
  bigSep Finset.univ fun r : Fin 8 => oLoc d ↦[oSet (blk c j r)]{fullShare} f
/-- The shared memory outright, at some contents: what subcore 0 is handed, and nobody else. -/
abbrev shWhole (d : Dev nD) (c : Fin τ.nSC) (j : Fin 16) : sProp 𝕄 :=
  if j.val = 0 then iprop(∃ f, shLoc d c ↦{fullShare} f) else iprop(emp)

/-- A core's halves of the indices and the table, and its 128 blocks of the result at contents `f`. -/
abbrev coreRes (d : Dev nD) (c : Fin 2) (f : Buf (Elt F) (oLoc d)) : sProp 𝕄 :=
  iprop((xLoc d ↦{sh2 c} m (xLoc d)) ∗ (tLoc d ↦{sh2 c} m (tLoc d)) ∗ bigSep Finset.univ fun j : Fin 16 => oBlocks d c j f)

/-- The call takes each core's half of the inputs and its blocks of the result; each task its shares, its eight blocks
    and (subcore 0) the shared memory; each brings back its shares, its share of the filled shared copy, and its blocks
    holding the lookup. Each task's proof consumes its barrier kit; each subcore owes its arrivals. -/
def P : (K (F := F)).Pay (nD := nD) (Val := Elt F) (Name := ℕ) (U := UU) where
  st := fun q d c => match q with | 0 => coreRes m d (Fin.cast nCore_zero c) (m (oLoc d))
  dn := fun q d c => match q with | 0 => coreRes m d (Fin.cast nCore_zero c) (want m d)
  go := fun q d c i => match q with
    | 0 => iprop(xShare m d (Fin.cast nCore_zero c) (Fin.cast nSub_zero i) ∗ tShare m d (Fin.cast nCore_zero c) (Fin.cast nSub_zero i)
        ∗ shWhole d (coreOf c) (Fin.cast nSub_zero i) ∗ oBlocks d (Fin.cast nCore_zero c) (Fin.cast nSub_zero i) (m (oLoc d)))
  td := fun q d c i => match q with
    | 0 => iprop(xShare m d (Fin.cast nCore_zero c) (Fin.cast nSub_zero i) ∗ tShare m d (Fin.cast nCore_zero c) (Fin.cast nSub_zero i)
        ∗ shPiece m d (coreOf c) (Fin.cast nSub_zero i) ∗ oBlocks d (Fin.cast nCore_zero c) (Fin.cast nSub_zero i) (want m d))
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st q d c := match q with
    | 0 => (inferInstance : BI.Storable (upEmb : UEmb _ 𝕄) (coreRes m d (Fin.cast nCore_zero c) (m (oLoc d))))
  dn q d c := match q with
    | 0 => (inferInstance : BI.Storable (upEmb : UEmb _ 𝕄) (coreRes m d (Fin.cast nCore_zero c) (want m d)))
  go q d c i := match q with
    | 0 => by
      show BI.Storable (upEmb : UEmb _ 𝕄) iprop(xShare m d (Fin.cast nCore_zero c) (Fin.cast nSub_zero i) ∗ tShare m d (Fin.cast nCore_zero c) (Fin.cast nSub_zero i)
        ∗ shWhole d (coreOf c) (Fin.cast nSub_zero i) ∗ oBlocks d (Fin.cast nCore_zero c) (Fin.cast nSub_zero i) (m (oLoc d)))
      unfold shWhole; split <;> infer_instance
  td q d c i := match q with
    | 0 => (inferInstance : BI.Storable (upEmb : UEmb _ 𝕄)
      iprop(xShare m d (Fin.cast nCore_zero c) (Fin.cast nSub_zero i) ∗ tShare m d (Fin.cast nCore_zero c) (Fin.cast nSub_zero i)
        ∗ shPiece m d (coreOf c) (Fin.cast nSub_zero i) ∗ oBlocks d (Fin.cast nCore_zero c) (Fin.cast nSub_zero i) (want m d)))

end Cert.Proof.KI

end
-- ==== Proof.KILaunch.lean ====
/-
  How the lookup's operands split among the cores and the tasks and rejoin, the launch element of the ghost state,
  @main on the TensorCore, what the final memory says, and the run of the whole program from one task's obligation.

  The result's 256 blocks of 64 rows are pairwise disjoint and cover it; block `16 j + 8 c + r` being chunk `r` of task
  `(c, j)`, the blocks regroup as core × subcore × chunk. The indices and the table are read only: the full share of each
  is cut in two halves, one per core, and each half in sixteen, one per task; cutting and rejoining are equations. The
  shared copy of the table is one of the sequencer's own buffers: subcore 0's task is handed it outright, and the
  sixteen tasks bring back the sixteen shares of the filled copy, which rejoin to the whole.
-/
import proofs.«203007_g6863357739279_cont_9to1c4b_879_17_alg».proof.Proof.KICommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The blocks of the result: disjoint, covering, and regrouped by core, subcore and chunk -/

theorem oSet_eq (n : Fin 256) : oSet n = (oBlock n).set := by
  show ((View.whole (main_v0_scv : Ref sig .scVector)).slice (oBlock n)).set = _
  rw [View.set_slice]; exact Finset.map_refl
theorem blocks_disjoint : ∀ i ∈ (Finset.univ : Finset (Fin 256)), ∀ j ∈ (Finset.univ : Finset (Fin 256)), i ≠ j → Disjoint (oSet i) (oSet j) :=
  fun i _ j _ h => by rw [oSet_eq, oSet_eq]; exact Rect.part_disjoint hdivO h
theorem blocks_cover : (Finset.univ : Finset (Fin 256)).biUnion oSet = Finset.univ :=
  (Finset.biUnion_congr rfl fun i _ => oSet_eq i).trans (Rect.biUnion_part hdivO)

/-- `(c, j, r) ↦ 16 j + 8 c + r` numbers the 256 blocks: `j = n / 16`, `c = n / 8 mod 2`, `r = n mod 8`. -/
def blkEquiv : Fin 2 × Fin 16 × Fin 8 ≃ Fin 256 where
  toFun x := blk x.1 x.2.1 x.2.2
  invFun n := (⟨n.val / 8 % 2, Nat.mod_lt _ (by decide)⟩, ⟨n.val / 16, by have := n.isLt; omega⟩, ⟨n.val % 8, Nat.mod_lt _ (by decide)⟩)
  left_inv := by
    rintro ⟨c, j, r⟩
    have hc := c.isLt; have hj := j.isLt; have hr := r.isLt
    refine Prod.ext (Fin.ext ?_) (Prod.ext (Fin.ext ?_) (Fin.ext ?_)) <;> (simp only [blk]; omega)
  right_inv := by
    intro n
    have hn := n.isLt
    refine Fin.ext ?_
    simp only [blk]; omega

/-- An array held whole is its 256 blocks, grouped by core, subcore and chunk. -/
theorem oPts_cores (d : Dev nD) (f : Buf (Elt F) (oLoc d)) :
    (oLoc d ↦{fullShare} f : sProp 𝕄) = bigSep Finset.univ fun c : Fin 2 => bigSep Finset.univ fun j : Fin 16 => oBlocks d c j f := by
  have h : (oLoc d ↦{fullShare} f : sProp 𝕄) = bigSep Finset.univ fun n : Fin 256 => oLoc d ↦[oSet n]{fullShare} f := by
    rw [← pointsTo_biUnion Finset.univ (ℓ := oLoc d) oSet blocks_disjoint, blocks_cover]; try rfl
  rw [h, bigSep_univ_equiv blkEquiv (fun n : Fin 256 => (oLoc d ↦[oSet n]{fullShare} f : sProp 𝕄)), bigSep_univ_prod]
  refine bigSep_congr fun c _ => ?_
  rw [bigSep_univ_prod]
  rfl

/-! ## The shares of the indices and the table -/

/-- The cores' halves of the inputs and their blocks of the result are the three arrays whole. -/
theorem cores_eq (d : Dev nD) (f : Buf (Elt F) (oLoc d)) :
    (bigSep Finset.univ fun c : Fin 2 => coreRes m d c f)
      = iprop((xLoc d ↦{fullShare} m (xLoc d)) ∗ (tLoc d ↦{fullShare} m (tLoc d)) ∗ oLoc d ↦{fullShare} f) := by
  unfold coreRes
  rw [bigSep_sep', bigSep_sep', ← pointsTo_piecesOf, ← pointsTo_piecesOf, ← oPts_cores]

/-- A core's resources are its tasks' shares and blocks. -/
theorem coreRes_tasks (d : Dev nD) (c : Fin 2) (f : Buf (Elt F) (oLoc d)) :
    coreRes m d c f = iprop((bigSep Finset.univ fun j : Fin 16 => xShare m d c j) ∗ (bigSep Finset.univ fun j : Fin 16 => tShare m d c j)
      ∗ bigSep Finset.univ fun j : Fin 16 => oBlocks d c j f) := by
  unfold coreRes xShare tShare sh32
  rw [← pointsTo_piecesOf, ← pointsTo_piecesOf]

/-- Only subcore 0 is handed the shared memory. -/
theorem shWhole_all (d : Dev nD) (c : Fin τ.nSC) :
    (bigSep Finset.univ fun j : Fin 16 => shWhole (F := F) d c j) = iprop(∃ f, shLoc d c ↦{fullShare} f) := by
  unfold shWhole
  refine (bigSep_filter Finset.univ (fun j : Fin 16 => j.val = 0) (fun _ => (iprop(∃ f, shLoc d c ↦{fullShare} f) : sProp 𝕄))).symm.trans ?_
  rw [show (Finset.univ.filter fun j : Fin 16 => j.val = 0) = {0} by decide, bigSep_singleton]

/-- The sixteen shares of the filled shared copy are the copy whole. -/
theorem shPieces_all (d : Dev nD) (c : Fin τ.nSC) :
    (bigSep Finset.univ fun j : Fin 16 => shPiece m d c j) = (shLoc d c ↦{fullShare} tblSh m d c : sProp 𝕄) := by
  unfold shPiece sh16
  rw [← pointsTo_piecesOf]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- The shared memory is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-! ## A core's operands to its tasks and back -/

theorem vecSplit : (K (F := F)).VecSplit (P m) 0 := by
  intro d c
  show iprop(coreRes m d (Fin.cast nCore_zero c) (m (oLoc d)) ∗ ownBufs (S d (coreOf c))) ⊢ |={Set.univ}=> iprop(
      (bigSep Finset.univ fun i : Fin ((K (F := F)).nSub 0) => iprop(xShare m d (Fin.cast nCore_zero c) (Fin.cast nSub_zero i) ∗ tShare m d (Fin.cast nCore_zero c) (Fin.cast nSub_zero i)
        ∗ shWhole d (coreOf c) (Fin.cast nSub_zero i) ∗ oBlocks d (Fin.cast nCore_zero c) (Fin.cast nSub_zero i) (m (oLoc d))))
      ∗ ((bigSep Finset.univ fun i : Fin ((K (F := F)).nSub 0) => iprop(xShare m d (Fin.cast nCore_zero c) (Fin.cast nSub_zero i) ∗ tShare m d (Fin.cast nCore_zero c) (Fin.cast nSub_zero i)
            ∗ shPiece m d (coreOf c) (Fin.cast nSub_zero i) ∗ oBlocks d (Fin.cast nCore_zero c) (Fin.cast nSub_zero i) (want m d)))
          -∗ iprop(coreRes m d (Fin.cast nCore_zero c) (want m d) ∗ ownBufs (S d (coreOf c)))))
  generalize Fin.cast nCore_zero c = c'
  rw [bigSep_tasks (F := F) (fun i => iprop(xShare m d c' i ∗ tShare m d c' i ∗ shWhole d (coreOf c) i ∗ oBlocks d c' i (m (oLoc d)))),
    bigSep_tasks (F := F) (fun i => iprop(xShare m d c' i ∗ tShare m d c' i ∗ shPiece m d (coreOf c) i ∗ oBlocks d c' i (want m d))),
    bigSep_sep', bigSep_sep', bigSep_sep', bigSep_sep', bigSep_sep', bigSep_sep', ownBufs_S, shWhole_all, shPieces_all,
    coreRes_tasks, coreRes_tasks]
  iintro ⟨⟨Hx, Ht, Ho⟩, Hsh, Hrest⟩; imodintro
  isplitl [Hx Ht Ho Hsh]
  · isplitl [Hx]; · iexact Hx
    isplitl [Ht]; · iexact Ht
    isplitl [Hsh]; · iexact Hsh
    iexact Ho
  iintro ⟨Hx, Ht, Hsh, Ho⟩
  isplitl [Hx Ht Ho]
  · isplitl [Hx]; · iexact Hx
    isplitl [Ht]; · iexact Ht
    iexact Ho
  isplitl [Hsh]; · iexists (tblSh m d (coreOf c)); iexact Hsh
  iexact Hrest

/-! ## The launch element of the ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Subcore `i`'s token in subcore `j`'s cell, for every pair of subcores of a core. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

variable [FloatOps F]

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each vector subcore the sixteen units of its own cell. -/
theorem creds_b : ((P (F := F) m).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every vector subcore is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One subcore's kit out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_with_persistent (S := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_with_persistent (S := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each vector subcore its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_with_persistent (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m)
  isplitr
  · isplitl; · iexists κ; iexact Hinv'
    iexact Hr'
  isplitl [Hat']; · iexact Hat'
  isplitl [Htok']; · iexact Htok'
  iexact Hcred'

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the call takes and what it brings back, over both cores: the three arrays whole. -/
theorem st0_eq (d : Dev nD) : (bigSep Finset.univ fun c : Fin ((K (F := F)).nCore 0) => (P m).st 0 d c)
    = iprop((xLoc d ↦{fullShare} m (xLoc d)) ∗ (tLoc d ↦{fullShare} m (tLoc d)) ∗ oLoc d ↦{fullShare} m (oLoc d)) :=
  (bigSep_cores (F := F) (fun c => coreRes m d c (m (oLoc d)))).trans (cores_eq m d (m (oLoc d)))
theorem dn0_eq (d : Dev nD) : (bigSep Finset.univ fun c : Fin ((K (F := F)).nCore 0) => (P m).dn 0 d c)
    = iprop((xLoc d ↦{fullShare} m (xLoc d)) ∗ (tLoc d ↦{fullShare} m (tLoc d)) ∗ oLoc d ↦{fullShare} want m d) :=
  (bigSep_cores (F := F) (fun c => coreRes m d c (want m d))).trans (cores_eq m d (want m d))

abbrev FIN (d : Dev nD) : sProp 𝕄 := iprop((xLoc d ↦{fullShare} m (xLoc d)) ∗ (tLoc d ↦{fullShare} m (tLoc d)) ∗ (oLoc d ↦{fullShare} want m d))

/-- @main on device `d`'s TensorCore: the one call, from the three arrays whole; the inputs kept, the result the lookup. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ht, Ho⟩, -, -⟩, -⟩
  iapply ((K (F := F)).wp_run (D (F := F)) 𝒱 (EH := EH) (P := P m) κ d 0) $$ [Hst Hx Ht Ho]
  isplitr; · iexact Hctx
  isplitl [Hst]; · iexact Hst
  isplitl [Hx Ht Ho]
  · rw [st0_eq]
    isplitl [Hx]; · iexact Hx
    isplitl [Ht]; · iexact Ht
    iexact Ho
  iintro ⟨Hst, Hdn⟩
  ihave Hdn' := (Entails.of_eq (dn0_eq m d)) $$ Hdn
  imodintro
  isplitl [Hst]; · iexact Hst
  iexact Hdn'

/-! ## What the final memory says -/

def fq (d : Dev nD) (s' : Phys nD τ sig (Elt F)) : Prop :=
  s'.mem.mem (oLoc d) = want m d ∧ s'.mem.mem (xLoc d) = m (xLoc d) ∧ s'.mem.mem (tLoc d) = m (tLoc d)

omit [FloatOps F] in
/-- An array held whole is what the memory holds there. -/
theorem agree_whole (s' : Phys nD τ sig (Elt F)) (ℓ : Loc nD τ sig) (f : Buf (Elt F) ℓ) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

omit [FloatOps F] in
theorem hfin (d : Dev nD) (s' : Phys nD τ sig (Elt F)) : iprop(FIN m d ∗ SI s') ⊢ (⌜fq m d s'⌝ : sProp 𝕄) := by
  have hx : iprop(FIN m d ∗ SI s') ⊢ (⌜s'.mem.mem (xLoc d) = m (xLoc d)⌝ : sProp 𝕄) := by
    iintro ⟨⟨Hx, -, -⟩, HSI⟩
    iapply (agree_whole s' (xLoc d) (m (xLoc d)))
    isplitl [Hx] <;> iassumption
  have ht : iprop(FIN m d ∗ SI s') ⊢ (⌜s'.mem.mem (tLoc d) = m (tLoc d)⌝ : sProp 𝕄) := by
    iintro ⟨⟨-, Ht, -⟩, HSI⟩
    iapply (agree_whole s' (tLoc d) (m (tLoc d)))
    isplitl [Ht] <;> iassumption
  have ho : iprop(FIN m d ∗ SI s') ⊢ (⌜s'.mem.mem (oLoc d) = want m d⌝ : sProp 𝕄) := by
    iintro ⟨⟨-, -, Ho⟩, HSI⟩
    iapply (agree_whole s' (oLoc d) (want m d))
    isplitl [Ho] <;> iassumption
  unfold fq
  exact fun a ha => ⟨ho a ha, hx a ha, ht a ha⟩

/-! ## The program's run -/

def QC : PUnit × MemSt nD τ sig (Elt F) → Prop := fun r =>
  ∀ c : Dev nD, r.2.mem (oLoc c) = want m c ∧ r.2.mem (xLoc c) = m (xLoc c) ∧ r.2.mem (tLoc c) = m (tLoc c)

/-- Every weakly fair execution of the whole program terminates, nothing faulting, the result the lookup and the inputs
    unchanged — given one task's obligation at a symbolic place. -/
theorem run_main [∀ e, Nonempty (Elt F e)] (hobl : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hobl)
    (fun q _ => match q with | 0 => vecSplit m)
    m ρ main (fun _ => iprop(emp)) (FIN m) (u₀ (F := F)) (hu₀ m) (hmain m ρ) (fq m) (hfin m) (QC m) (fun _ h => h)

end Cert.Proof.KI

end
-- ==== Proof.KITile.lean ====
/-
  One task of the lookup, at a symbolic grid point: its names, its blocks, its cells, and what passes the barrier.

  The task at grid point `L` runs on vector subcore `L 1` of core `L 0` and owns the 512 indices from
  `1024 (L 1) + 512 (L 0)` on. Chunk `r` of its rows of the result — 64 rows from `1024 (L 1) + 512 (L 0) + 64 r` — is block
  `16 (L 1) + 8 (L 0) + r` of the result's 256. A vector subcore's scoped semaphores are exactly its eleven transfer
  semaphores. At the barrier subcore 0, which filled the shared copy of the table, cuts it into sixteen shares and hands
  one to each subcore with its arrival; the others hand over nothing; each subcore finds its share in what its own round
  collected. Once the task's indices have landed in its index scratch, every window of that scratch reads words below
  1000, because the indices are. A share read by eight transfers at once is cut in eight.
-/
import proofs.«203007_g6863357739279_cont_9to1c4b_879_17_alg».proof.Proof.KICommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "xV" => (Memref.whole Cert.KernelIdeal.main_arg0_scv : Memref Cert.KernelIdeal.sig Kind.scVector Space.hbm Cert.KernelIdeal.S16384 EltTy.i32)
local notation "tV" => (Memref.whole Cert.KernelIdeal.main_arg1_scv : Memref Cert.KernelIdeal.sig Kind.scVector Space.hbm Cert.KernelIdeal.S1000x128 EltTy.f32)
local notation "oV" => (Memref.whole Cert.KernelIdeal.main_v0_scv : Memref Cert.KernelIdeal.sig Kind.scVector Space.hbm Cert.KernelIdeal.S16384x128 EltTy.f32)
local notation "iV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)
local notation "shV" => (Memref.whole Cert.KernelIdeal.cc0_scratch2 : Memref Cert.KernelIdeal.sig Kind.scVector Space.shared Cert.KernelIdeal.S1000x128 EltTy.f32)

variable [FloatOps F]

section Tile

variable (d : Dev nD) (L : grid0.Coords)

/-- The task at grid point `L` runs on vector subcore `L 1` of core `L 0`. -/
abbrev cV (L : grid0.Coords) : Fin τ.nSC := (L 0).castLE hcore0
abbrev jV (L : grid0.Coords) : Fin τ.nSub := (L 1).castLE hsub0
omit [FloatOps F] in
theorem bound_one : grid0.bound 1 = 16 := rfl
omit [FloatOps F] in
theorem bound_zero : grid0.bound 0 = 2 := rfl
abbrev jL (L : grid0.Coords) : Fin 16 := Fin.cast bound_one (L 1)
abbrev cL (L : grid0.Coords) : Fin 2 := Fin.cast bound_zero (L 0)

/-- Chunk `r` of the task's rows of the result, as the task addresses it: 64 rows from `1024 (L 1) + 512 (L 0) + 64 r`. -/
abbrev oRectK (L : grid0.Coords) (r : Fin 8) : Rect S16384x128 :=
  Rect.unit (s := S16384x128) (k0_off2 L (BitVec.ofNat 32 (64 * r.val))) S64x128.size (k0_off2_inb L r)
abbrev oChunkK (L : grid0.Coords) (r : Fin 8) : Memref sig .scVector .hbm S64x128 .f32 := (oV).slice (oRectK L r) (fun _ => rfl)

omit [FloatOps F] in
/-- It is block `16 (L 1) + 8 (L 0) + r` of the 256. -/
theorem oRectK_eq (r : Fin 8) : oRectK L r = oBlock (blk (cL L) (jL L) r) := by
  unfold oRectK oBlock Rect.part Rect.block
  congr 1 <;> funext a
  · rw [k0_off2_eq]
    match a with
    | 0 => simp [Shape.partIx, Shape.partSize, blk]; omega
    | 1 => simp [Shape.partIx, Shape.partSize]
  · match a with
    | 0 => simp [Shape.partSize]
    | 1 => simp [Shape.partSize]

omit [FloatOps F] in
theorem set_oChunkK (r : Fin 8) : (oChunkK L r).view.set = oSet (blk (cL L) (jL L) r) := by
  show ((oV).view.slice (oRectK L r)).set = ((oV).view.slice (oBlock (blk (cL L) (jL L) r))).set
  rw [oRectK_eq]

omit [FloatOps F] in
theorem pts_oChunkK (r : Fin 8) (f : Buf (Elt F) (oLoc d)) :
    ((oChunkK L r).view.loc (V d (cV L) (jV L)) ↦[(oChunkK L r).view.set]{fullShare} f : sProp 𝕄) = oLoc d ↦[oSet (blk (cL L) (jL L) r)]{fullShare} f := by
  rw [set_oChunkK]

omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_shV (q : PosShare TreeShare) (f : Buf (Elt F) (shLoc d (cV L))) :
    ((shV).view.loc (V d (cV L) (jV L)) ↦{q} f : sProp 𝕄) = shLoc d (cV L) ↦{q} f := rfl
omit [FloatOps F] in
theorem pts_iV (f : Buf (Elt F) ((V d (cV L) (jV L)).loc cc0_scratch0)) :
    ((iV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- A vector subcore's scoped semaphores are its eleven transfer semaphores. -/
abbrev dcell (d : Dev nD) (c : Fin τ.nSC) (i : Fin τ.nSub) (k : Fin 11) : GSem nD τ sig := (V d c i, .dma k)

omit [FloatOps F] in
theorem ownCells_V : ownCells (V d (cV L) (jV L)) = (Finset.univ : Finset (Fin 11)).image (dcell d (cV L) (jV L)) := by
  ext g
  rw [mem_ownCells, Finset.mem_image]
  constructor
  · rintro ⟨h1, h2⟩
    obtain ⟨thr, sm⟩ := g
    dsimp only at h1; subst h1
    cases sm with
    | reg s => exact absurd h2 ((by decide : ∀ s : Sem sig, ¬ ((SemLoc.reg s : SemLoc sig).isScoped .scVector = true)) s)
    | dma k => exact ⟨k, Finset.mem_univ _, rfl⟩
  · rintro ⟨k, -, rfl⟩
    exact ⟨rfl, show (SemLoc.dma k : SemLoc sig).isScoped .scVector = true by revert k; decide⟩

omit [FloatOps F] in
theorem ownSems0_V : (ownSems0 (V d (cV L) (jV L)) : sProp 𝕄) = bigSep Finset.univ fun k : Fin 11 => semVal (dcell d (cV L) (jV L) k) 0 := by
  unfold SparseCore.Cfg.ownSems0
  rw [ownCells_V, SparseCore.bigSep_image_of_injOn (fun a _ b _ e => by
    have := (Prod.mk.inj e).2; exact SemLoc.dma.inj this)]

omit [FloatOps F] in
/-- The index scratch and the row scratch are among the subcore's own buffers. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- The eleven cells, each under the name the task's text gives it. -/
theorem ownSems0_V' : (ownSems0 (V d (cV L) (jV L)) : sProp 𝕄)
    = iprop(semVal (V d (cV L) (jV L), SemLoc.dma cc0_scratch3.sem) 0 ∗ semVal (V d (cV L) (jV L), SemLoc.dma cc0_scratch4.sem) 0
        ∗ semVal (V d (cV L) (jV L), SemLoc.dma cc0_scratch5.sem) 0 ∗ semVal (V d (cV L) (jV L), SemLoc.dma cc0_scratch6.sem) 0
        ∗ semVal (V d (cV L) (jV L), SemLoc.dma cc0_scratch7.sem) 0 ∗ semVal (V d (cV L) (jV L), SemLoc.dma cc0_scratch8.sem) 0
        ∗ semVal (V d (cV L) (jV L), SemLoc.dma cc0_scratch9.sem) 0 ∗ semVal (V d (cV L) (jV L), SemLoc.dma cc0_scratch10.sem) 0
        ∗ semVal (V d (cV L) (jV L), SemLoc.dma cc0_scratch11.sem) 0 ∗ semVal (V d (cV L) (jV L), SemLoc.dma cc0_scoped0.sem) 0
        ∗ semVal (V d (cV L) (jV L), SemLoc.dma cc0_scoped1.sem) 0) := by
  rw [ownSems0_V, show (Finset.univ : Finset (Fin 11)) = {0, 1, 2, 3, 4, 5, 6, 7, 8, 9, 10} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-! ## Around the barrier -/

omit [FloatOps F] in
theorem castLE_cast (j : Fin (grid0.bound 1)) : Fin.cast nSub_eq (j.castLE hsub0) = Fin.cast bound_one j := Fin.ext rfl

/-- Subcore 0, holding the filled shared copy outright, cuts it into the sixteen shares its arrivals hand over. -/
theorem pays_zero (h0 : (L 1).val = 0) : (shLoc d (cV L) ↦{fullShare} tblSh m d (cV L) : sProp 𝕄)
    ⊢ bigSep Finset.univ fun j : Fin (grid0.bound 1) => (bRd (F := F) m).payload (bcell d (cV L) (j.castLE hsub0)) 0 (jV L).val := by
  have hv : (jV L).val = 0 := h0
  rw [hv, pointsTo_piecesOf Finset.univ (tblSh m d (cV L)) (by decide : 0 < 16) fullShare]
  refine Entails.of_eq (bigSep_congr (s := (Finset.univ : Finset (Fin (grid0.bound 1)))) fun j _ => ?_)
  show _ = bPay m (bcell d (cV L) (j.castLE hsub0)) 0
  unfold bPay; dsimp only
  rw [if_pos rfl]
  exact congrArg (fun j' : Fin 16 => (shLoc d (cV L) ↦{sh16 j'} tblSh m d (cV L) : sProp 𝕄)) (Fin.ext rfl)

/-- Any other subcore's arrivals hand over nothing. -/
theorem pays_pos (h0 : ¬ (L 1).val = 0) : (shWhole d (cV L) (jL L) : sProp 𝕄)
    ⊢ bigSep Finset.univ fun j : Fin (grid0.bound 1) => (bRd (F := F) m).payload (bcell d (cV L) (j.castLE hsub0)) 0 (jV L).val := by
  have hv : ¬ (jV L).val = 0 := h0
  unfold shWhole
  rw [if_neg (show ¬ (jL L).val = 0 from h0), show (bigSep Finset.univ fun j : Fin (grid0.bound 1) => (bRd (F := F) m).payload (bcell d (cV L) (j.castLE hsub0)) 0 (jV L).val)
      = bigSep Finset.univ fun _ : Fin (grid0.bound 1) => (iprop(emp) : sProp 𝕄) from bigSep_congr fun j _ => if_neg hv, bigSep_emp']

/-- What a subcore's own round collected holds its share of the filled shared copy: subcore 0's arrival brought it. -/
theorem pays_elim : (bigSep ((bRd (F := F) m).duties (bcell d (cV L) (jV L)) 0 \ ∅) fun n => (bRd (F := F) m).payload (bcell d (cV L) (jV L)) 0 n)
    ⊢ (shPiece m d (cV L) (jL L) : sProp 𝕄) := by
  rw [Finset.sdiff_empty, bRd_duties₀]
  refine (bigSep_elim (i := (0 : ℕ)) (Finset.mem_image.mpr ⟨(⟨0, by decide⟩ : Fin τ.nSub), Finset.mem_univ _, rfl⟩)).trans ?_
  show bPay m (bcell d (cV L) (jV L)) 0 ⊢ _
  unfold bPay; dsimp only
  rw [if_pos rfl]
  exact Entails.of_eq (by rw [show Fin.cast nSub_eq (jV L) = jL L from Fin.ext rfl])

/-! ## The indices the gathers read -/

/-- The task's 512 indices, as it addresses them in the index array. -/
abbrev xRectK (L : grid0.Coords) : Rect S16384 := Rect.unit (s := S16384) (k0_off1 L) S512.size (k0_off1_inb L)
abbrev xSliceK (L : grid0.Coords) : Memref sig .scVector .hbm S512 .i32 := (xV).slice (xRectK L) (fun _ => rfl)

omit [FloatOps F] in
/-- Once the task's indices have landed in the index scratch, every 64-entry window of it reads words below 1000. -/
theorem inb_of_pre (hx : ∀ r, (m (xLoc d) r).toNat < 1000) (fs : Buf (Elt F) ((V d (cV L) (jV L)).loc cc0_scratch0)) (pay : S512.Idx → Elt F .i32)
    (hpay : pay = (xSliceK L).view.read (Elt F) (m (xLoc d))) (R : Rect S512) (h : ∀ a, R.stride a = 1) :
    ∀ y, (((iV).slice R h).view.read (Elt F) (View.write (Elt F) (iV).view fs pay Finset.univ) y).toNat < S1000x128.size gathers_S1000x128_S64x128.axis := by
  subst hpay; intro y
  rw [View.write_whole_univ]
  rw [show ∀ (g : Buf (Elt F) (((iV).slice R h).view.loc (V d (cV L) (jV L)))) j, ((iV).slice R h).view.read (Elt F) g j = g (((iV).slice R h).view.emb j) from fun g j => (View.read_apply _ _).trans (cast_eq _ _)]
  rw [show ∀ j, (xSliceK L).view.read (Elt F) (m (xLoc d)) j = m (xLoc d) ((xSliceK L).view.emb j) from fun j => (View.read_apply _ _).trans (cast_eq _ _)]
  exact hx _

/-! ## One read share per gather, and the result's blocks one by one -/

omit [FloatOps F] in
/-- A share cut in eight, one piece for each of the eight gathers that read the shared copy at once. -/
theorem pts_pieces8 {ℓ : Loc nD τ sig} (f : Buf (Elt F) ℓ) (q : PosShare TreeShare) :
    (ℓ ↦{q} f : sProp 𝕄) = iprop((ℓ ↦{pieceOf q 8 (by decide) 0} f) ∗ (ℓ ↦{pieceOf q 8 (by decide) 1} f) ∗ (ℓ ↦{pieceOf q 8 (by decide) 2} f)
      ∗ (ℓ ↦{pieceOf q 8 (by decide) 3} f) ∗ (ℓ ↦{pieceOf q 8 (by decide) 4} f) ∗ (ℓ ↦{pieceOf q 8 (by decide) 5} f)
      ∗ (ℓ ↦{pieceOf q 8 (by decide) 6} f) ∗ (ℓ ↦{pieceOf q 8 (by decide) 7} f)) := by
  rw [pointsTo_piecesOf Finset.univ f (by decide : 0 < 8) q, show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- Chunk `r` of the task's rows of the result, held outright at contents `f`, as the task addresses it. -/
abbrev oCh (r : Fin 8) (f : Buf (Elt F) (oLoc d)) : sProp 𝕄 :=
  (oChunkK L r).view.loc (V d (cV L) (jV L)) ↦[(oChunkK L r).view.set]{fullShare} f

omit [FloatOps F] in
theorem oBlocks_split (f : Buf (Elt F) (oLoc d)) :
    (oBlocks d (cL L) (jL L) f : sProp 𝕄) = iprop(oCh d L 0 f ∗ oCh d L 1 f ∗ oCh d L 2 f ∗ oCh d L 3 f ∗ oCh d L 4 f ∗ oCh d L 5 f ∗ oCh d L 6 f ∗ oCh d L 7 f) := by
  unfold oBlocks
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  have e : ∀ r, (oLoc d ↦[oSet (blk (cL L) (jL L) r)]{fullShare} f : sProp 𝕄) = oCh d L r f := fun r => (pts_oChunkK d L r f).symm
  rw [e 0, e 1, e 2, e 3, e 4, e 5, e 6, e 7]

end Tile

end Cert.Proof.KI

end
-- ==== Proof.KIValue.lean ====
/-
  What one task leaves in its rows of the result, as pure data.

  The task at grid point `L` owns the 512 indices from `base = 1024 (L 1) + 512 (L 0)` on. It copies them into its
  index scratch, so that the scratch reads `x[base + p]` at `p`. Gather `k` reads the 64 words of the scratch from
  `64 k` on and delivers, at `(p', q)`, entry `q` of the table row that word `64 k + p'` names; it lands in rows
  `[64 k, 64 k + 64)` of the row scratch. All eight pieces therefore agree with ONE function of the row scratch's
  index, `G (p, q) = tbl[rowOf x[base + p], q]` (every index word is below 1000, where the capped row is the word's
  own value). Store `r` reads rows `[64 r, 64 r + 64)` of the row scratch, so its payload at `(p', q)` is
  `G (64 r + p', q)`; it lands at row `base + 64 r + p'` of the result, where the lookup is
  `tbl[rowOf x[base + 64 r + p'], q]`: the same.
-/
import proofs.«203007_g6863357739279_cont_9to1c4b_879_17_alg».proof.Proof.KITile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

local notation "xV" => (Memref.whole Cert.KernelIdeal.main_arg0_scv : Memref Cert.KernelIdeal.sig Kind.scVector Space.hbm Cert.KernelIdeal.S16384 EltTy.i32)
local notation "tV" => (Memref.whole Cert.KernelIdeal.main_arg1_scv : Memref Cert.KernelIdeal.sig Kind.scVector Space.hbm Cert.KernelIdeal.S1000x128 EltTy.f32)
local notation "oV" => (Memref.whole Cert.KernelIdeal.main_v0_scv : Memref Cert.KernelIdeal.sig Kind.scVector Space.hbm Cert.KernelIdeal.S16384x128 EltTy.f32)
local notation "iV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)
local notation "shV" => (Memref.whole Cert.KernelIdeal.cc0_scratch2 : Memref Cert.KernelIdeal.sig Kind.scVector Space.shared Cert.KernelIdeal.S1000x128 EltTy.f32)

variable [FloatOps F]

section Value

variable (d : Dev nD) (L : grid0.Coords)

/-! ## The payloads, as the run leaves them -/

omit [FloatOps F] in
/-- Window `k` of the index scratch — 64 words from `64 k` on — lies inside it. -/
theorem iWin_inb (k : Fin 8) : ∀ a, (![64 * k.val] : Fin 1 → Nat) a + S64.size a ≤ S512.size a :=
  Fin.forall_fin_one.mpr (by show 64 * k.val + 64 ≤ 512; omega)

omit [FloatOps F] in
/-- Rows `[64 k, 64 k + 64)` of the row scratch lie inside it. -/
theorem rWin_inb (k : Fin 8) : ∀ a, (![64 * k.val, 0] : Fin 2 → Nat) a + S64x128.size a ≤ S512x128.size a :=
  Fin.forall_fin_two.mpr ⟨by show 64 * k.val + 64 ≤ 512; omega, by show 0 + 128 ≤ 128; omega⟩

/-- The index copy's payload: the task's 512 indices, read off the index array. -/
def idxPay : S512.Idx → Elt F .i32 :=
  ReadAs.same.apply (View.read (Elt F) ((xV).slice (Rect.unit (k0_off1 L) S512.size (k0_off1_inb L)) (fun _ => rfl)).view (m (xLoc d)))

/-- Window `k` of the index scratch once the indices have landed in it. -/
abbrev iWin (fi : Buf (Elt F) ((V d (cV L) (jV L)).loc cc0_scratch0)) (k : Fin 8) : S64.Idx → Elt F .i32 :=
  View.read (Elt F) ((iV).slice (Rect.unit ![64 * k.val] S64.size (iWin_inb k)) (fun _ => rfl)).view
    (View.write (Elt F) (iV).view fi (idxPay m d L) Finset.univ)

/-- Gather `k`'s payload: at `(p', q)`, entry `q` of the table row that word `p'` of window `k` names. -/
def gatherPay (fi : Buf (Elt F) ((V d (cV L) (jV L)).loc cc0_scratch0)) (k : Fin 8)
    (h : ∀ x, (iWin m d L fi k x).toNat < S1000x128.size gathers_S1000x128_S64x128.axis) : S64x128.Idx → Elt F .f32 :=
  SparseCore.gatherPayload gathers_S1000x128_S64x128
    (View.read (Elt F) ((shV).slice (Rect.unit ![0, 0] S1000x128.size inb_S1000x128_S1000x128_0_0) (fun _ => rfl)).view (m (tLoc d)))
    (SparseCore.rows (iWin m d L fi k) rfl h)

/-- The row scratch after the eight gathers, the last issued first. -/
def rowsAll (fi : Buf (Elt F) ((V d (cV L) (jV L)).loc cc0_scratch0)) (fr : Buf (Elt F) ((V d (cV L) (jV L)).loc cc0_scratch1))
    (hs : ∀ (k : Fin 8) x, (iWin m d L fi k x).toNat < S1000x128.size gathers_S1000x128_S64x128.axis) :
    Buf (Elt F) ((V d (cV L) (jV L)).loc cc0_scratch1) :=
  (rV).view.writes (Elt F) fr
    [⟨Rect.unit ![448, 0] S64x128.size inb_S512x128_S64x128_448_0, gatherPay m d L fi 7 (hs 7)⟩,
     ⟨Rect.unit ![384, 0] S64x128.size inb_S512x128_S64x128_384_0, gatherPay m d L fi 6 (hs 6)⟩,
     ⟨Rect.unit ![320, 0] S64x128.size inb_S512x128_S64x128_320_0, gatherPay m d L fi 5 (hs 5)⟩,
     ⟨Rect.unit ![256, 0] S64x128.size inb_S512x128_S64x128_256_0, gatherPay m d L fi 4 (hs 4)⟩,
     ⟨Rect.unit ![192, 0] S64x128.size inb_S512x128_S64x128_192_0, gatherPay m d L fi 3 (hs 3)⟩,
     ⟨Rect.unit ![128, 0] S64x128.size inb_S512x128_S64x128_128_0, gatherPay m d L fi 2 (hs 2)⟩,
     ⟨Rect.unit ![64, 0] S64x128.size inb_S512x128_S64x128_64_0, gatherPay m d L fi 1 (hs 1)⟩,
     ⟨Rect.unit ![0, 0] S64x128.size inb_S512x128_S64x128_0_0, gatherPay m d L fi 0 (hs 0)⟩]

/-- Store `r`'s payload: rows `[64 r, 64 r + 64)` of the row scratch after the gathers. -/
def storePay (fi : Buf (Elt F) ((V d (cV L) (jV L)).loc cc0_scratch0)) (fr : Buf (Elt F) ((V d (cV L) (jV L)).loc cc0_scratch1))
    (hs : ∀ (k : Fin 8) x, (iWin m d L fi k x).toNat < S1000x128.size gathers_S1000x128_S64x128.axis) (r : Fin 8) :
    S64x128.Idx → Elt F .f32 :=
  ReadAs.same.apply (View.read (Elt F) ((rV).slice (Rect.unit ![64 * r.val, 0] S64x128.size (rWin_inb r)) (fun _ => rfl)).view
    (rowsAll m d L fi fr hs))

/-! ## Indices by their coordinates' values -/

omit [FloatOps F] in
theorem idx1_ext {n : Nat} {i j : (⟨1, ![n]⟩ : Shape).Idx} (h : (i 0).val = (j 0).val) : i = j := by
  funext a; match a with | ⟨0, _⟩ => exact Fin.ext h

omit [FloatOps F] in
theorem idx2_ext {n0 n1 : Nat} {i j : (⟨2, ![n0, n1]⟩ : Shape).Idx} (h0 : (i 0).val = (j 0).val) (h1 : (i 1).val = (j 1).val) : i = j := by
  funext a; match a with | ⟨0, _⟩ => exact Fin.ext h0 | ⟨1, _⟩ => exact Fin.ext h1

omit [FloatOps F] in
theorem idx1_lt0 {n : Nat} (j : (⟨1, ![n]⟩ : Shape).Idx) : (j 0).val < n := (j 0).isLt

omit [FloatOps F] in
/-- The task's indices lie inside the index array. -/
theorem base_lt (n : Nat) (hn : n < 512) : 1024 * (L 1).val + 512 * (L 0).val + n < 16384 := by
  have h1 : (L 1).val < 16 := (L 1).isLt
  have h0 : (L 0).val < 2 := (L 0).isLt
  omega

/-- Index word `n` of the index array. -/
abbrev xAt (n : Nat) (hn : n < 16384) : BitVec 32 := (m (xLoc d) : S16384.Idx → BitVec 32) (ix1 ⟨n, hn⟩)

omit [FloatOps F] in
theorem xAt_congr {n n' : Nat} (e : n = n') (hn : n < 16384) (hn' : n' < 16384) : xAt m d n hn = xAt m d n' hn' := by
  subst e; rfl

omit [FloatOps F] in
theorem x_eq_xAt (j : S16384.Idx) : (m (xLoc d) : S16384.Idx → BitVec 32) j = xAt m d (j 0).val (idx1_lt0 j) :=
  congrArg (m (xLoc d) : S16384.Idx → BitVec 32) (idx1_ext rfl)

/-- The one function all eight gathers' pieces agree with: at `(p, q)` of the row scratch, entry `q` of the table row
    that the task's `p`-th index names. -/
def rowsWant : S512x128.Idx → Elt F .f32 := fun p =>
  (m (tLoc d) : S1000x128.Idx → Elt F .f32)
    (ix2 (Cert.Lookup.rowOf (xAt m d (1024 * (L 1).val + 512 * (L 0).val + (p 0).val) (base_lt L _ (idx2_lt0 p))))
      (⟨(p 1).val, idx2_lt1 p⟩ : Fin 128))

omit [FloatOps F] in
/-- The index copy's payload at `p` is index word `base + p`. -/
theorem idxPay_apply (p : S512.Idx) : idxPay m d L p = xAt m d (1024 * (L 1).val + 512 * (L 0).val + (p 0).val) (base_lt L _ (idx1_lt0 p)) := by
  have e : idxPay m d L p = (m (xLoc d) : S16384.Idx → BitVec 32) ((xSliceK L).view.emb p) := (View.read_apply _ _).trans (cast_eq _ _)
  rw [e, x_eq_xAt m d]
  refine xAt_congr m d ?_ _ _
  show k0_off1 L 0 + 1 * (p 0).val = _
  rw [k0_off1_eq]
  show 1024 * (L 1).val + 512 * (L 0).val + 1 * (p 0).val = _
  omega

omit [FloatOps F] in
/-- Window `k` of the index scratch reads index word `base + 64 k + p'` at `p'`. -/
theorem iWin_apply (fi : Buf (Elt F) ((V d (cV L) (jV L)).loc cc0_scratch0)) (k : Fin 8) (y : S64.Idx) :
    iWin m d L fi k y = xAt m d (1024 * (L 1).val + 512 * (L 0).val + (64 * k.val + (y 0).val))
      (base_lt L _ (by have := idx1_lt0 y; omega)) := by
  unfold iWin
  rw [View.write_whole_univ]
  rw [show ∀ (g : S512.Idx → Elt F .i32), View.read (Elt F) ((iV).slice (Rect.unit ![64 * k.val] S64.size (iWin_inb k)) (fun _ => rfl)).view g y
      = g ((Rect.unit (s := S512) ![64 * k.val] S64.size (iWin_inb k)).emb y) from fun g => (View.read_apply _ _).trans (cast_eq _ _)]
  rw [idxPay_apply]
  refine xAt_congr m d ?_ _ _
  show 1024 * (L 1).val + 512 * (L 0).val + (64 * k.val + 1 * (y 0).val) = _
  omega

omit [FloatOps F] in
/-- In a rank-1 shape the row-major position is the coordinate. -/
theorem rowMajor_symm_val_one {n : Nat} (j : Fin (⟨1, ![n]⟩ : Shape).numel) :
    (((⟨1, ![n]⟩ : Shape).rowMajor.symm j) 0).val = j.val := by
  have h := Shape.rowMajor_val_one ((⟨1, ![n]⟩ : Shape).rowMajor.symm j)
  rw [Equiv.apply_symm_apply] at h
  exact h.symm

omit [FloatOps F] in
/-- Gather `k`'s payload agrees with the one function at the place its piece lands. -/
theorem gatherPay_apply (hx : ∀ r, (m (xLoc d) r).toNat < 1000) (fi : Buf (Elt F) ((V d (cV L) (jV L)).loc cc0_scratch0)) (k : Fin 8)
    (h : ∀ x, (iWin m d L fi k x).toNat < S1000x128.size gathers_S1000x128_S64x128.axis) (x : S64x128.Idx) :
    gatherPay m d L fi k h x = rowsWant m d L ((Rect.unit (s := S512x128) ![64 * k.val, 0] S64x128.size (rWin_inb k)).emb x) := by
  have e : gatherPay m d L fi k h x = (m (tLoc d) : S1000x128.Idx → Elt F .f32)
      ((Rect.unit (s := S1000x128) ![0, 0] S1000x128.size inb_S1000x128_S1000x128_0_0).emb
        (gathers_S1000x128_S64x128.idx (SparseCore.rows (iWin m d L fi k) rfl h) x)) := by
    show View.read (Elt F) ((shV).slice (Rect.unit ![0, 0] S1000x128.size inb_S1000x128_S1000x128_0_0) (fun _ => rfl)).view (m (tLoc d))
      (gathers_S1000x128_S64x128.idx (SparseCore.rows (iWin m d L fi k) rfl h) x) = _
    exact (View.read_apply _ _).trans (cast_eq _ _)
  rw [e]
  unfold rowsWant
  refine congrArg (m (tLoc d) : S1000x128.Idx → Elt F .f32) (idx2_ext ?_ ?_)
  · show 0 + 1 * (gathers_S1000x128_S64x128.idx (SparseCore.rows (iWin m d L fi k) rfl h) x 0).val = (Cert.Lookup.rowOf _).val
    rw [Cert.Lookup.rowOf_val_of_lt (hx _)]
    have e0 := congrArg Fin.val (Shape.Gathers.idx_axis gathers_S1000x128_S64x128 (SparseCore.rows (iWin m d L fi k) rfl h) x)
    refine (Nat.zero_add _).trans ((Nat.one_mul _).trans (e0.trans ?_))
    show (iWin m d L fi k (S64.rowMajor.symm _)).toNat = _
    rw [iWin_apply]
    refine congrArg BitVec.toNat (xAt_congr m d ?_ _ _)
    rw [rowMajor_symm_val_one]
    show 1024 * (L 1).val + 512 * (L 0).val + (64 * k.val + (x 0).val) = 1024 * (L 1).val + 512 * (L 0).val + (64 * k.val + 1 * (x 0).val)
    omega
  · show 0 + 1 * (gathers_S1000x128_S64x128.idx (SparseCore.rows (iWin m d L fi k) rfl h) x 1).val = 0 + 1 * (x 1).val
    rw [Shape.Gathers.idx_of_ne gathers_S1000x128_S64x128 _ x 1 (by decide)]
    rfl

omit [FloatOps F] in
/-- Where store `r` reads lies under the piece that starts at row `64 r`. -/
theorem mem_rWin (n : Nat) (r : Fin 8) (hn : n = 64 * r.val) (inb : ∀ a, (![n, 0] : Fin 2 → Nat) a + S64x128.size a ≤ S512x128.size a)
    (y : S64x128.Idx) :
    (Rect.unit (s := S512x128) ![64 * r.val, 0] S64x128.size (rWin_inb r)).emb y ∈ (Rect.unit (s := S512x128) ![n, 0] S64x128.size inb).set := by
  subst hn; exact LoadRect.idx_mem (Rect.unit (s := S512x128) ![64 * r.val, 0] S64x128.size (rWin_inb r)).toLoadRect y

omit [FloatOps F] in
/-- Store `r`'s payload is the one function on rows `[64 r, 64 r + 64)`. -/
theorem storePay_apply (hx : ∀ r, (m (xLoc d) r).toNat < 1000) (fi : Buf (Elt F) ((V d (cV L) (jV L)).loc cc0_scratch0))
    (fr : Buf (Elt F) ((V d (cV L) (jV L)).loc cc0_scratch1))
    (hs : ∀ (k : Fin 8) x, (iWin m d L fi k x).toNat < S1000x128.size gathers_S1000x128_S64x128.axis) (r : Fin 8) (y : S64x128.Idx) :
    storePay m d L fi fr hs r y = rowsWant m d L ((Rect.unit (s := S512x128) ![64 * r.val, 0] S64x128.size (rWin_inb r)).emb y) := by
  have e : storePay m d L fi fr hs r y = View.read (Elt F) (rV).view (rowsAll m d L fi fr hs)
      ((Rect.unit (s := S512x128) ![64 * r.val, 0] S64x128.size (rWin_inb r)).emb y) := rfl
  rw [e]
  unfold rowsAll
  refine View.read_writes_apply_of_pieces (rV).view fr (rowsWant m d L) _ ?_ _ ?_
  · intro p hp
    simp only [List.mem_cons, List.not_mem_nil, or_false] at hp
    rcases hp with rfl | rfl | rfl | rfl | rfl | rfl | rfl | rfl
    · exact fun x => gatherPay_apply m d L hx fi 7 (hs 7) x
    · exact fun x => gatherPay_apply m d L hx fi 6 (hs 6) x
    · exact fun x => gatherPay_apply m d L hx fi 5 (hs 5) x
    · exact fun x => gatherPay_apply m d L hx fi 4 (hs 4) x
    · exact fun x => gatherPay_apply m d L hx fi 3 (hs 3) x
    · exact fun x => gatherPay_apply m d L hx fi 2 (hs 2) x
    · exact fun x => gatherPay_apply m d L hx fi 1 (hs 1) x
    · exact fun x => gatherPay_apply m d L hx fi 0 (hs 0) x
  · rcases r with ⟨n, hn⟩
    interval_cases n
    · exact ⟨⟨Rect.unit ![0, 0] S64x128.size inb_S512x128_S64x128_0_0, gatherPay m d L fi 0 (hs 0)⟩, List.mem_cons_of_mem _ (List.mem_cons_of_mem _ (List.mem_cons_of_mem _ (List.mem_cons_of_mem _ (List.mem_cons_of_mem _ (List.mem_cons_of_mem _ (List.mem_cons_of_mem _ (List.mem_cons_self))))))), mem_rWin 0 ⟨0, hn⟩ rfl inb_S512x128_S64x128_0_0 y⟩
    · exact ⟨⟨Rect.unit ![64, 0] S64x128.size inb_S512x128_S64x128_64_0, gatherPay m d L fi 1 (hs 1)⟩, List.mem_cons_of_mem _ (List.mem_cons_of_mem _ (List.mem_cons_of_mem _ (List.mem_cons_of_mem _ (List.mem_cons_of_mem _ (List.mem_cons_of_mem _ (List.mem_cons_self)))))), mem_rWin 64 ⟨1, hn⟩ rfl inb_S512x128_S64x128_64_0 y⟩
    · exact ⟨⟨Rect.unit ![128, 0] S64x128.size inb_S512x128_S64x128_128_0, gatherPay m d L fi 2 (hs 2)⟩, List.mem_cons_of_mem _ (List.mem_cons_of_mem _ (List.mem_cons_of_mem _ (List.mem_cons_of_mem _ (List.mem_cons_of_mem _ (List.mem_cons_self))))), mem_rWin 128 ⟨2, hn⟩ rfl inb_S512x128_S64x128_128_0 y⟩
    · exact ⟨⟨Rect.unit ![192, 0] S64x128.size inb_S512x128_S64x128_192_0, gatherPay m d L fi 3 (hs 3)⟩, List.mem_cons_of_mem _ (List.mem_cons_of_mem _ (List.mem_cons_of_mem _ (List.mem_cons_of_mem _ (List.mem_cons_self)))), mem_rWin 192 ⟨3, hn⟩ rfl inb_S512x128_S64x128_192_0 y⟩
    · exact ⟨⟨Rect.unit ![256, 0] S64x128.size inb_S512x128_S64x128_256_0, gatherPay m d L fi 4 (hs 4)⟩, List.mem_cons_of_mem _ (List.mem_cons_of_mem _ (List.mem_cons_of_mem _ (List.mem_cons_self))), mem_rWin 256 ⟨4, hn⟩ rfl inb_S512x128_S64x128_256_0 y⟩
    · exact ⟨⟨Rect.unit ![320, 0] S64x128.size inb_S512x128_S64x128_320_0, gatherPay m d L fi 5 (hs 5)⟩, List.mem_cons_of_mem _ (List.mem_cons_of_mem _ (List.mem_cons_self)), mem_rWin 320 ⟨5, hn⟩ rfl inb_S512x128_S64x128_320_0 y⟩
    · exact ⟨⟨Rect.unit ![384, 0] S64x128.size inb_S512x128_S64x128_384_0, gatherPay m d L fi 6 (hs 6)⟩, List.mem_cons_of_mem _ (List.mem_cons_self), mem_rWin 384 ⟨6, hn⟩ rfl inb_S512x128_S64x128_384_0 y⟩
    · exact ⟨⟨Rect.unit ![448, 0] S64x128.size inb_S512x128_S64x128_448_0, gatherPay m d L fi 7 (hs 7)⟩, List.mem_cons_self, mem_rWin 448 ⟨7, hn⟩ rfl inb_S512x128_S64x128_448_0 y⟩

omit [FloatOps F] in
/-- Chunk `r` of the result, after store `r` has landed in it, holds the lookup. -/
theorem oCh_value (hx : ∀ r, (m (xLoc d) r).toNat < 1000) (fi : Buf (Elt F) ((V d (cV L) (jV L)).loc cc0_scratch0))
    (fr : Buf (Elt F) ((V d (cV L) (jV L)).loc cc0_scratch1))
    (hs : ∀ (k : Fin 8) x, (View.read (Elt F) ((iV).slice (Rect.unit ![64 * k.val] S64.size (iWin_inb k)) (fun _ => rfl)).view
        (View.write (Elt F) (iV).view fi (idxPay m d L) Finset.univ) x).toNat < S1000x128.size gathers_S1000x128_S64x128.axis) (r : Fin 8) :
    (oCh d L r ((oChunkK L r).view.writes (Elt F) (m (oLoc d)) [⟨Rect.whole S64x128, storePay m d L fi fr hs r⟩]) : sProp 𝕄)
      = oCh d L r (want m d) := by
  refine pointsTo_congr fun i hi => ?_
  obtain ⟨y, -, rfl⟩ := Finset.mem_map.mp hi
  have hrd : ∀ g : Buf (Elt F) (oLoc d), (oChunkK L r).view.read (Elt F) g y = g ((oChunkK L r).view.emb y) :=
    fun g => (View.read_apply _ _).trans (cast_eq _ _)
  have e1 := View.read_writes_cons_emb (oChunkK L r).view (m (oLoc d)) (Rect.whole S64x128) (storePay m d L fi fr hs r) [] y
  rw [Rect.emb_whole_apply] at e1
  refine (hrd _).symm.trans (e1.trans ?_)
  rw [storePay_apply m d L hx]
  show rowsWant m d L _ = Cert.Lookup.rows (m (xLoc d) : S16384.Idx → BitVec 32) (m (tLoc d) : S1000x128.Idx → Elt F .f32) ((oRectK L r).emb y)
  unfold rowsWant Cert.Lookup.rows
  refine congrArg (m (tLoc d) : S1000x128.Idx → Elt F .f32) (idx2_ext ?_ ?_)
  · refine congrArg (fun w => (Cert.Lookup.rowOf w).val) (xAt_congr m d ?_ _ _)
    show 1024 * (L 1).val + 512 * (L 0).val + (64 * r.val + 1 * (y 0).val) = k0_off2 L (BitVec.ofNat 32 (64 * r.val)) 0 + 1 * (y 0).val
    rw [k0_off2_eq]
    show _ = 1024 * (L 1).val + 512 * (L 0).val + 64 * r.val + 1 * (y 0).val
    omega
  · show 0 + 1 * (y 1).val = k0_off2 L (BitVec.ofNat 32 (64 * r.val)) 1 + 1 * (y 1).val
    rw [k0_off2_eq]
    rfl

end Value

end Cert.Proof.KI

end
-- ==== Proof.KIBody.lean ====
/-
  One task of the lookup, proved at a symbolic grid point, and with it every task of the call.

  The task first — on subcore 0 only — copies the table into the core's shared memory and waits for the copy; copies
  its 512 indices into its index scratch and waits; arrives at the barrier, where subcore 0 hands each subcore a share of
  the filled shared copy; starts eight gathers, each of the 64 table rows that one window of the index scratch names,
  into the matching 64 rows of its row scratch, each on a semaphore of its own, reading the shared copy through one
  eighth of its share; then, chunk by chunk, waits for the gather and starts the store of those 64 rows to the chunk's
  block of the result, all eight stores on one semaphore, counted, and finally drains them with eight waits. Between
  the first store's issue and the last wait nothing touches a store's rows of the scratch or its block of the result:
  the gathers still in flight land in later chunks. Every index being below 1000, every gather's words name rows of
  the table. At the return each block of the result holds the lookup (Proof/KIValue.lean), the shares are whole again,
  the semaphores are at zero.
-/
import proofs.«203007_g6863357739279_cont_9to1c4b_879_17_alg».proof.Proof.KITile
import proofs.«203007_g6863357739279_cont_9to1c4b_879_17_alg».proof.Proof.KIValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "xV" => (Memref.whole Cert.KernelIdeal.main_arg0_scv : Memref Cert.KernelIdeal.sig Kind.scVector Space.hbm Cert.KernelIdeal.S16384 EltTy.i32)
local notation "tV" => (Memref.whole Cert.KernelIdeal.main_arg1_scv : Memref Cert.KernelIdeal.sig Kind.scVector Space.hbm Cert.KernelIdeal.S1000x128 EltTy.f32)
local notation "oV" => (Memref.whole Cert.KernelIdeal.main_v0_scv : Memref Cert.KernelIdeal.sig Kind.scVector Space.hbm Cert.KernelIdeal.S16384x128 EltTy.f32)
local notation "iV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)
local notation "shV" => (Memref.whole Cert.KernelIdeal.cc0_scratch2 : Memref Cert.KernelIdeal.sig Kind.scVector Space.shared Cert.KernelIdeal.S1000x128 EltTy.f32)

variable [FloatOps F]

section Tile

variable (d : Dev nD) (L : grid0.Coords)

/-- The task's text asks "is this subcore 0?" of the subcore's number. -/
abbrev isSub0 (L : grid0.Coords) : Prop :=
  Scalar.cmpi .ne (Scalar.extui (Scalar.cmpi .eq (BitVec.ofNat 32 (L 1).val) 0#32) : BitVec 32) 0#32 = 1#1

omit [FloatOps F] in
theorem isSub0_iff : isSub0 L ↔ (L 1).val = 0 := by
  unfold isSub0
  have h : (L 1).val < 16 := (L 1).isLt
  generalize (L 1).val = n at h ⊢
  interval_cases n <;> decide

omit [FloatOps F] in
/-- Subcore 0's copy of the table into the shared memory leaves the table there, whatever was there before. -/
theorem shared_filled (fsh : Buf (Elt F) (shLoc d (cV L))) (pay : S1000x128.Idx → Elt F .f32) (hpay : pay = (tV).view.read (Elt F) (m (tLoc d))) :
    ((shV).view.loc (V d (cV L) (jV L)) ↦{fullShare} View.write (Elt F) (shV).view fsh pay Finset.univ : sProp 𝕄)
      = shLoc d (cV L) ↦{fullShare} tblSh m d (cV L) := by
  subst hpay
  rw [View.write_whole_univ]
  rfl

omit [FloatOps F] in
/-- A wait recorded at no index, or at the call's, keeps the record within what the task may leave. -/
theorem ok_insert {W W' : Waits sig (HIx 1)} (a : SemLoc sig × HIx 1) (ha : a.2 = none ∨ a.2 = some (0 : Fin 1))
    (h : ∀ p ∈ W', p ∈ W ∨ p.2 = none ∨ p.2 = some (0 : Fin 1)) : ∀ p ∈ insert a W', p ∈ W ∨ p.2 = none ∨ p.2 = some (0 : Fin 1) := by
  intro p hp
  rcases Finset.mem_insert.mp hp with rfl | hp
  · exact .inr ha
  · exact h p hp

set_option maxRecDepth 100000 in
set_option maxHeartbeats 1600000 in
/-- The task on vector subcore `(L 0, L 1)`: subcore 0 fills the shared copy of the table; the task's indices into its
    index scratch; the barrier, where the filled copy is shared out; eight gathers of 64 table rows each, one semaphore
    apiece, then per chunk the gather's wait and the chunk's store to the result, the eight stores counted on one
    semaphore and drained by eight waits. No store's source or target is touched between its issue and the last wait. -/
theorem tile_body (hF : (K (F := F)).Facts) (hx : ∀ r, (m (xLoc d) r).toNat < 1000)
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (xShare m d (cL L) (jL L) ∗ tShare m d (cL L) (jL L) ∗ shWhole d (cV L) (jL L) ∗ oBlocks d (cL L) (jL L) (m (oLoc d)))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_gather_kernel L xV (Memref.isWhole_whole _) tV (Memref.isWhole_whole _) oV (Memref.isWhole_whole _)
            iV (Memref.isWhole_whole _) rV (Memref.isWhole_whole _) shV (Memref.isWhole_whole _)
            cc0_scratch3 cc0_scratch4 cc0_scratch5 cc0_scratch6 cc0_scratch7 cc0_scratch8 cc0_scratch9 cc0_scratch10 cc0_scratch11 cc0_scoped0 cc0_scoped1)
          fun _ => iprop((xShare m d (cL L) (jL L) ∗ tShare m d (cL L) (jL L) ∗ shPiece m d (cV L) (jL L) ∗ oBlocks d (cL L) (jL L) (want m d))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0_gather_kernel_eq_skeleton]; unfold cc0_gather_kernel_skel
  simp only [k0_part6_eq_skeleton]; unfold k0_part6_skel
  simp only [k0_part1_eq_skeleton]; unfold k0_part1_skel
  rw [(K (F := F)).scopedBufs_V hF d (cV L) (jV L), SparseCore.Cfg.scopedSems0_V (Val := Elt F) d (cV L) (jV L), ownSems0_V', ownBufs_V]
  unfold bkit
  iintro ⟨#Hlv, ⟨⟨%κ, #Hinv⟩, Htoks, #Hrch, Hat, Hcred⟩, ⟨Hx, Ht, Hshw, Hob⟩, ⟨⟨%fi, Hi⟩, ⟨%fr, Hr⟩, Hbufs⟩, ⟨Hg0, Hg1, Hg2, Hg3, Hg4, Hg5, Hg6, Hg7, Hst, Hsa, Hsb⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xV (F := F) d L _ _).symm) $$ Hx
  ihave Ht' := (Entails.of_eq (pts_tV (F := F) d L _ _).symm) $$ Ht
  ihave Hi' := (Entails.of_eq (pts_iV (F := F) d L _).symm) $$ Hi
  ihave Hr' := (Entails.of_eq (pts_rV (F := F) d L _).symm) $$ Hr
  have hin := inb_of_pre (F := F) m d L hx fi ((xSliceK L).view.read (Elt F) (m (xLoc d))) rfl
  have _plan : Transfers.BatchOf (V d (cV L) (jV L)) (SemLoc.dma (sig := sig) cc0_scratch11.sem) 8 := trivial
  by_cases h0 : (L 1).val = 0
  · have hc : isSub0 L := (isSub0_iff L).mpr h0
    ihave Hshw' := (Entails.of_eq (show (shWhole d (cV L) (jL L) : sProp 𝕄) = iprop(∃ f, shLoc d (cV L) ↦{fullShare} f) from if_pos h0)) $$ Hshw
    icases Hshw' with ⟨%fsh, Hsh0⟩
    ihave Hsh0' := (Entails.of_eq (pts_shV (F := F) d L _ _).symm) $$ Hsh0
    sl_exec
    ihave Hpays := (pays_zero (F := F) m d L h0) $$ [Hsh0']
    · iapply (Entails.of_eq (shared_filled (F := F) m d L fsh ((tV).view.read (Elt F) (m (tLoc d))) rfl)); iexact Hsh0'
    rw [bind_assoc]
    iapply (SparseCore.wp_subcoreBarrier 𝒱₀ none EB (bRd (F := F) m) d (sc := cV L) (i := jV L) sc_bar0 (grid0.bound 1) hsub0 (L 1) rfl κ (fun _ => 0) (jV L).val
        (fun j => bRd_mem₀ m d _ _ _) (fun _ => rfl) (bRd_expect m d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := V d (cV L) (jV L)) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hsh := (pays_elim (F := F) m d L) $$ Hgot
    ihave Hsh' := (Entails.of_eq (pts_shV (F := F) d L _ _).symm) $$ Hsh
    ihave Hsh8 := (Entails.of_eq (pts_pieces8 (F := F) (ℓ := View.loc (V d (cV L) (jV L)) (shV).view) (tblSh m d (cV L)) (sh16 (jL L)))) $$ Hsh'
    icases Hsh8 with ⟨Hs0, Hs1, Hs2, Hs3, Hs4, Hs5, Hs6, Hs7⟩
    ihave Hob8 := (Entails.of_eq (oBlocks_split (F := F) d L (m (oLoc d)))) $$ Hob
    icases Hob8 with ⟨Ho0, Ho1, Ho2, Ho3, Ho4, Ho5, Ho6, Ho7⟩
    sl_exec
    sl_step
    isplitl [Hx' Ht' Hs0 Hs1 Hs2 Hs3 Hs4 Hs5 Hs6 Hs7 Ho0 Ho1 Ho2 Ho3 Ho4 Ho5 Ho6 Ho7]
    · isplitl [Hx']; · iapply (Entails.of_eq (pts_xV (F := F) d L _ _)); iexact Hx'
      isplitl [Ht']; · iapply (Entails.of_eq (pts_tV (F := F) d L _ _)); iexact Ht'
      isplitl [Hs0 Hs1 Hs2 Hs3 Hs4 Hs5 Hs6 Hs7]
      · iapply (Entails.of_eq (pts_shV (F := F) d L _ _))
        iapply (Entails.of_eq (pts_pieces8 (F := F) (ℓ := View.loc (V d (cV L) (jV L)) (shV).view) (tblSh m d (cV L)) (sh16 (jL L))).symm)
        isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        isplitl [Hs6]; · iexact Hs6
        iexact Hs7
      iapply (Entails.of_eq (oBlocks_split (F := F) d L (want m d)).symm)
      isplitl [Ho0]; · iapply (Entails.of_eq (oCh_value (F := F) m d L hx fi fr (fun k x => hin _ _ x) 0)); iexact Ho0
      isplitl [Ho1]; · iapply (Entails.of_eq (oCh_value (F := F) m d L hx fi fr (fun k x => hin _ _ x) 1)); iexact Ho1
      isplitl [Ho2]; · iapply (Entails.of_eq (oCh_value (F := F) m d L hx fi fr (fun k x => hin _ _ x) 2)); iexact Ho2
      isplitl [Ho3]; · iapply (Entails.of_eq (oCh_value (F := F) m d L hx fi fr (fun k x => hin _ _ x) 3)); iexact Ho3
      isplitl [Ho4]; · iapply (Entails.of_eq (oCh_value (F := F) m d L hx fi fr (fun k x => hin _ _ x) 4)); iexact Ho4
      isplitl [Ho5]; · iapply (Entails.of_eq (oCh_value (F := F) m d L hx fi fr (fun k x => hin _ _ x) 5)); iexact Ho5
      isplitl [Ho6]; · iapply (Entails.of_eq (oCh_value (F := F) m d L hx fi fr (fun k x => hin _ _ x) 6)); iexact Ho6
      iapply (Entails.of_eq (oCh_value (F := F) m d L hx fi fr (fun k x => hin _ _ x) 7)); iexact Ho7
    isplitl [Hi' Hr' Hbufs]
    · isplitl [Hi']; · iexists _; iapply (Entails.of_eq (pts_iV (F := F) d L _)); iexact Hi'
      isplitl [Hr']; · iexists _; iapply (Entails.of_eq (pts_rV (F := F) d L _)); iexact Hr'
      iexact Hbufs
    isplitl [Hg0 Hg1 Hg2 Hg3 Hg4 Hg5 Hg6 Hg7 Hst Hsa Hsb]
    · isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Hg6]; · iexact Hg6
      isplitl [Hg7]; · iexact Hg7
      isplitl [Hst]; · iexact Hst
      isplitl [Hsa]; · iexact Hsa
      iexact Hsb
    iexists _; isplitr
    swap; · iexact HO
    ipureintro
    repeat (first | exact fun p hp => Or.inl hp | refine ok_insert _ (by first | exact Or.inl rfl | exact Or.inr rfl) ?_)
  · have hc : ¬ isSub0 L := fun h => h0 ((isSub0_iff L).mp h)
    sl_exec
    ihave Hpays := (pays_pos (F := F) m d L h0) $$ [Hshw]
    · iexact Hshw
    rw [bind_assoc]
    iapply (SparseCore.wp_subcoreBarrier 𝒱₀ none EB (bRd (F := F) m) d (sc := cV L) (i := jV L) sc_bar0 (grid0.bound 1) hsub0 (L 1) rfl κ (fun _ => 0) (jV L).val
        (fun j => bRd_mem₀ m d _ _ _) (fun _ => rfl) (bRd_expect m d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := V d (cV L) (jV L)) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hsh := (pays_elim (F := F) m d L) $$ Hgot
    ihave Hsh' := (Entails.of_eq (pts_shV (F := F) d L _ _).symm) $$ Hsh
    ihave Hsh8 := (Entails.of_eq (pts_pieces8 (F := F) (ℓ := View.loc (V d (cV L) (jV L)) (shV).view) (tblSh m d (cV L)) (sh16 (jL L)))) $$ Hsh'
    icases Hsh8 with ⟨Hs0, Hs1, Hs2, Hs3, Hs4, Hs5, Hs6, Hs7⟩
    ihave Hob8 := (Entails.of_eq (oBlocks_split (F := F) d L (m (oLoc d)))) $$ Hob
    icases Hob8 with ⟨Ho0, Ho1, Ho2, Ho3, Ho4, Ho5, Ho6, Ho7⟩
    sl_exec
    sl_step
    isplitl [Hx' Ht' Hs0 Hs1 Hs2 Hs3 Hs4 Hs5 Hs6 Hs7 Ho0 Ho1 Ho2 Ho3 Ho4 Ho5 Ho6 Ho7]
    · isplitl [Hx']; · iapply (Entails.of_eq (pts_xV (F := F) d L _ _)); iexact Hx'
      isplitl [Ht']; · iapply (Entails.of_eq (pts_tV (F := F) d L _ _)); iexact Ht'
      isplitl [Hs0 Hs1 Hs2 Hs3 Hs4 Hs5 Hs6 Hs7]
      · iapply (Entails.of_eq (pts_shV (F := F) d L _ _))
        iapply (Entails.of_eq (pts_pieces8 (F := F) (ℓ := View.loc (V d (cV L) (jV L)) (shV).view) (tblSh m d (cV L)) (sh16 (jL L))).symm)
        isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        isplitl [Hs6]; · iexact Hs6
        iexact Hs7
      iapply (Entails.of_eq (oBlocks_split (F := F) d L (want m d)).symm)
      isplitl [Ho0]; · iapply (Entails.of_eq (oCh_value (F := F) m d L hx fi fr (fun k x => hin _ _ x) 0)); iexact Ho0
      isplitl [Ho1]; · iapply (Entails.of_eq (oCh_value (F := F) m d L hx fi fr (fun k x => hin _ _ x) 1)); iexact Ho1
      isplitl [Ho2]; · iapply (Entails.of_eq (oCh_value (F := F) m d L hx fi fr (fun k x => hin _ _ x) 2)); iexact Ho2
      isplitl [Ho3]; · iapply (Entails.of_eq (oCh_value (F := F) m d L hx fi fr (fun k x => hin _ _ x) 3)); iexact Ho3
      isplitl [Ho4]; · iapply (Entails.of_eq (oCh_value (F := F) m d L hx fi fr (fun k x => hin _ _ x) 4)); iexact Ho4
      isplitl [Ho5]; · iapply (Entails.of_eq (oCh_value (F := F) m d L hx fi fr (fun k x => hin _ _ x) 5)); iexact Ho5
      isplitl [Ho6]; · iapply (Entails.of_eq (oCh_value (F := F) m d L hx fi fr (fun k x => hin _ _ x) 6)); iexact Ho6
      iapply (Entails.of_eq (oCh_value (F := F) m d L hx fi fr (fun k x => hin _ _ x) 7)); iexact Ho7
    isplitl [Hi' Hr' Hbufs]
    · isplitl [Hi']; · iexists _; iapply (Entails.of_eq (pts_iV (F := F) d L _)); iexact Hi'
      isplitl [Hr']; · iexists _; iapply (Entails.of_eq (pts_rV (F := F) d L _)); iexact Hr'
      iexact Hbufs
    isplitl [Hg0 Hg1 Hg2 Hg3 Hg4 Hg5 Hg6 Hg7 Hst Hsa Hsb]
    · isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Hg6]; · iexact Hg6
      isplitl [Hg7]; · iexact Hg7
      isplitl [Hst]; · iexact Hst
      isplitl [Hsa]; · iexact Hsa
      iexact Hsb
    iexists _; isplitr
    swap; · iexact HO
    ipureintro
    repeat (first | exact fun p hp => Or.inl hp | refine ok_insert _ (by first | exact Or.inl rfl | exact Or.inr rfl) ?_)

end Tile

/-! ## The obligation -/

/-- The grid point of subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          xV (Memref.isWhole_whole _) tV (Memref.isWhole_whole _) oV (Memref.isWhole_whole _) iV (Memref.isWhole_whole _) rV (Memref.isWhole_whole _) shV (Memref.isWhole_whole _)
          cc0_scratch3 cc0_scratch4 cc0_scratch5 cc0_scratch6 cc0_scratch7 cc0_scratch8 cc0_scratch9 cc0_scratch10 cc0_scratch11 cc0_scoped0 cc0_scoped1) ⟨⟩ c s := rfl

set_option maxRecDepth 16384 in
/-- Every task of the call, given that every index word on every device is below 1000. -/
theorem tileObl (hF : (K (F := F)).Facts) (hx : ∀ d r, (m (xLoc d) r).toNat < 1000) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF (hx d) O W hO hOlev

end Cert.Proof.KI

end
-- ==== Proof.KBCommon.lean ====
/-
  The lookup kernel's program as the launch theorem reads it, and what its threads hand one another.

  Thirty-two tasks — sixteen vector subcores on each of two cores — share the work: task `(c, j)` owns the 512
  consecutive indices from `1024 j + 512 c` on, in eight chunks of 64. On each core the task of subcore 0 first
  copies the whole table into the core's shared memory; every task copies its 512 indices into its own memory; all
  sixteen meet at the barrier; then each task gathers, chunk by chunk, the table rows its indices name out of the
  shared copy and stores each chunk of 64 rows to its place in the result.

  The result array is cut into 256 blocks of 64 rows, block `16 j + 8 c + r` being chunk `r` of task `(c, j)`.
  The indices and the table are only read: they travel as shares. The shared copy of the table is written by
  subcore 0 alone and read by all sixteen after the barrier: subcore 0's arrival at subcore `j`'s barrier cell
  hands over the `j`-th of sixteen shares of the filled copy.
-/
import proofs.«203007_g6863357739279_cont_9to1c4b_879_17_alg».proof.Defs
import Idealize.ShloMosaic.Lib.SparseCore.Launch
import Idealize.ShloMosaic.Lib.SparseCore.Ops
import Idealize.ShloMosaic.Lib.SparseCore.Stream
import Idealize.ShloMosaic.Lib.Batch
import Idealize.ShloMosaic.Lib.StableHlo.Run
import Idealize.ShloMosaic.Lib.Pipeline.Kit
import Idealize.ShloMosaic.Lib.Tactic
import proofs.«203007_g6863357739279_cont_9to1c4b_879_17_alg».proof.Proof.Gen.Kernel
import proofs.«203007_g6863357739279_cont_9to1c4b_879_17_alg».proof.Proof.Gen.Kernel.Skeleton
import proofs.«203007_g6863357739279_cont_9to1c4b_879_17_alg».proof.Proof.Lookup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The core of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory, the arrays, their blocks and shares -/

variable (m : (ℓ : Loc nD τ sig) → Buf (Elt F) ℓ) (ρ : Dev nD → PrngReg)

/-- The indices, the table and the result, in device `d`'s memory. -/
abbrev xLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

/-- Core `c`'s shared memory, as every vector subcore of it addresses it. -/
abbrev shRef (c : Fin τ.nSC) : DevRef τ sig := ⟨.shared, ⟨0, by decide⟩, c⟩
abbrev shLoc (d : Dev nD) (c : Fin τ.nSC) : Loc nD τ sig := (d, shRef c)

theorem nSub_eq : τ.nSub = 16 := rfl
theorem nSC_eq : τ.nSC = 2 := rfl

/-- The result's 16384 rows in 256 blocks of 64. -/
theorem hdivO : 256 ∣ S16384x128.size 0 := ⟨64, rfl⟩
abbrev oBlock (n : Fin 256) : Rect S16384x128 := Rect.part (s := S16384x128) (a₀ := 0) hdivO n
abbrev oSet (n : Fin 256) : Finset S16384x128.Idx := ((Memref.whole main_v0_scv : Memref sig .scVector .hbm S16384x128 .f32).view.slice (oBlock n)).set

/-- Chunk `r` of the task on subcore `j` of core `c` is block `16 j + 8 c + r`. -/
def blk (c : Fin 2) (j : Fin 16) (r : Fin 8) : Fin 256 := ⟨16 * j.val + 8 * c.val + r.val, by omega⟩

/-- Core `c`'s half of a read share, and subcore `j`'s sixteenth of that. -/
abbrev sh2 (c : Fin 2) : PosShare TreeShare := pieceOf fullShare 2 (by decide) c
abbrev sh32 (c : Fin 2) (j : Fin 16) : PosShare TreeShare := pieceOf (sh2 c) 16 (by decide) j
/-- Subcore `j`'s sixteenth of the shared copy of the table. -/
abbrev sh16 (j : Fin 16) : PosShare TreeShare := pieceOf fullShare 16 (by decide) j

/-- The table, as the contents of a core's shared memory. -/
abbrev tblSh (d : Dev nD) (c : Fin τ.nSC) : Buf (Elt F) (shLoc d c) := (m (tLoc d) : S1000x128.Idx → Elt F .f32)
/-- The lookup's result, as the contents of the result array. -/
abbrev want (d : Dev nD) : Buf (Elt F) (oLoc d) :=
  (Cert.Lookup.rows (m (xLoc d) : S16384.Idx → BitVec 32) (m (tLoc d) : S1000x128.Idx → Elt F .f32) : S16384x128.Idx → Elt F .f32)

variable [FloatOps F]

/-! ## The barrier cells -/

/-- Vector subcore `(c, j)`'s barrier semaphore on device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Subcore `j`'s share of the filled shared copy. -/
abbrev shPiece (d : Dev nD) (c : Fin τ.nSC) (j : Fin 16) : sProp 𝕄 := shLoc d c ↦{sh16 j} tblSh m d c

/-- What an arrival at subcore `j`'s cell hands over: subcore 0's, the `j`-th share of the filled shared copy; the others', nothing. -/
def bPay (g : GSem nD τ sig) (n : ℕ) : sProp 𝕄 :=
  match g with
  | ((d, .scVector c j), _) => if n = 0 then shPiece m d c (Fin.cast nSub_eq j) else iprop(emp)
  | _ => iprop(emp)

/-- The barrier cells' schedule: one round on each, of one unit arrival per subcore of the core (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) m).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a vector subcore owe for the barrier: one unit on every subcore's cell of its core, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A subcore's kit for the barrier: every cell invariant of its core and that each has reached round 0, its own position
    at the origin of round 0, its arrival token in every subcore's round 0, and the credit for the sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- A task's shares of the indices and of the table, and its eight blocks of the result at contents `f`. -/
abbrev xShare (d : Dev nD) (c : Fin 2) (j : Fin 16) : sProp 𝕄 := xLoc d ↦{sh32 c j} m (xLoc d)
abbrev tShare (d : Dev nD) (c : Fin 2) (j : Fin 16) : sProp 𝕄 := tLoc d ↦{sh32 c j} m (tLoc d)
abbrev oBlocks (d : Dev nD) (c : Fin 2) (j : Fin 16) (f : Buf (Elt F) (oLoc d)) : sProp 𝕄 :=
  bigSep Finset.univ fun r : Fin 8 => oLoc d ↦[oSet (blk c j r)]{fullShare} f
/-- The shared memory outright, at some contents: what subcore 0 is handed, and nobody else. -/
abbrev shWhole (d : Dev nD) (c : Fin τ.nSC) (j : Fin 16) : sProp 𝕄 :=
  if j.val = 0 then iprop(∃ f, shLoc d c ↦{fullShare} f) else iprop(emp)

/-- A core's halves of the indices and the table, and its 128 blocks of the result at contents `f`. -/
abbrev coreRes (d : Dev nD) (c : Fin 2) (f : Buf (Elt F) (oLoc d)) : sProp 𝕄 :=
  iprop((xLoc d ↦{sh2 c} m (xLoc d)) ∗ (tLoc d ↦{sh2 c} m (tLoc d)) ∗ bigSep Finset.univ fun j : Fin 16 => oBlocks d c j f)

/-- The call takes each core's half of the inputs and its blocks of the result; each task its shares, its eight blocks
    and (subcore 0) the shared memory; each brings back its shares, its share of the filled shared copy, and its blocks
    holding the lookup. Each task's proof consumes its barrier kit; each subcore owes its arrivals. -/
def P : (K (F := F)).Pay (nD := nD) (Val := Elt F) (Name := ℕ) (U := UU) where
  st := fun q d c => match q with | 0 => coreRes m d (Fin.cast nCore_zero c) (m (oLoc d))
  dn := fun q d c => match q with | 0 => coreRes m d (Fin.cast nCore_zero c) (want m d)
  go := fun q d c i => match q with
    | 0 => iprop(xShare m d (Fin.cast nCore_zero c) (Fin.cast nSub_zero i) ∗ tShare m d (Fin.cast nCore_zero c) (Fin.cast nSub_zero i)
        ∗ shWhole d (coreOf c) (Fin.cast nSub_zero i) ∗ oBlocks d (Fin.cast nCore_zero c) (Fin.cast nSub_zero i) (m (oLoc d)))
  td := fun q d c i => match q with
    | 0 => iprop(xShare m d (Fin.cast nCore_zero c) (Fin.cast nSub_zero i) ∗ tShare m d (Fin.cast nCore_zero c) (Fin.cast nSub_zero i)
        ∗ shPiece m d (coreOf c) (Fin.cast nSub_zero i) ∗ oBlocks d (Fin.cast nCore_zero c) (Fin.cast nSub_zero i) (want m d))
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st q d c := match q with
    | 0 => (inferInstance : BI.Storable (upEmb : UEmb _ 𝕄) (coreRes m d (Fin.cast nCore_zero c) (m (oLoc d))))
  dn q d c := match q with
    | 0 => (inferInstance : BI.Storable (upEmb : UEmb _ 𝕄) (coreRes m d (Fin.cast nCore_zero c) (want m d)))
  go q d c i := match q with
    | 0 => by
      show BI.Storable (upEmb : UEmb _ 𝕄) iprop(xShare m d (Fin.cast nCore_zero c) (Fin.cast nSub_zero i) ∗ tShare m d (Fin.cast nCore_zero c) (Fin.cast nSub_zero i)
        ∗ shWhole d (coreOf c) (Fin.cast nSub_zero i) ∗ oBlocks d (Fin.cast nCore_zero c) (Fin.cast nSub_zero i) (m (oLoc d)))
      unfold shWhole; split <;> infer_instance
  td q d c i := match q with
    | 0 => (inferInstance : BI.Storable (upEmb : UEmb _ 𝕄)
      iprop(xShare m d (Fin.cast nCore_zero c) (Fin.cast nSub_zero i) ∗ tShare m d (Fin.cast nCore_zero c) (Fin.cast nSub_zero i)
        ∗ shPiece m d (coreOf c) (Fin.cast nSub_zero i) ∗ oBlocks d (Fin.cast nCore_zero c) (Fin.cast nSub_zero i) (want m d)))

end Cert.Proof.KB

end
-- ==== Proof.KBLaunch.lean ====
/-
  How the lookup's operands split among the cores and the tasks and rejoin, the launch element of the ghost state,
  @main on the TensorCore, what the final memory says, and the run of the whole program from one task's obligation.

  The result's 256 blocks of 64 rows are pairwise disjoint and cover it; block `16 j + 8 c + r` being chunk `r` of task
  `(c, j)`, the blocks regroup as core × subcore × chunk. The indices and the table are read only: the full share of each
  is cut in two halves, one per core, and each half in sixteen, one per task; cutting and rejoining are equations. The
  shared copy of the table is one of the sequencer's own buffers: subcore 0's task is handed it outright, and the
  sixteen tasks bring back the sixteen shares of the filled copy, which rejoin to the whole.
-/
import proofs.«203007_g6863357739279_cont_9to1c4b_879_17_alg».proof.Proof.KBCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The blocks of the result: disjoint, covering, and regrouped by core, subcore and chunk -/

theorem oSet_eq (n : Fin 256) : oSet n = (oBlock n).set := by
  show ((View.whole (main_v0_scv : Ref sig .scVector)).slice (oBlock n)).set = _
  rw [View.set_slice]; exact Finset.map_refl
theorem blocks_disjoint : ∀ i ∈ (Finset.univ : Finset (Fin 256)), ∀ j ∈ (Finset.univ : Finset (Fin 256)), i ≠ j → Disjoint (oSet i) (oSet j) :=
  fun i _ j _ h => by rw [oSet_eq, oSet_eq]; exact Rect.part_disjoint hdivO h
theorem blocks_cover : (Finset.univ : Finset (Fin 256)).biUnion oSet = Finset.univ :=
  (Finset.biUnion_congr rfl fun i _ => oSet_eq i).trans (Rect.biUnion_part hdivO)

/-- `(c, j, r) ↦ 16 j + 8 c + r` numbers the 256 blocks: `j = n / 16`, `c = n / 8 mod 2`, `r = n mod 8`. -/
def blkEquiv : Fin 2 × Fin 16 × Fin 8 ≃ Fin 256 where
  toFun x := blk x.1 x.2.1 x.2.2
  invFun n := (⟨n.val / 8 % 2, Nat.mod_lt _ (by decide)⟩, ⟨n.val / 16, by have := n.isLt; omega⟩, ⟨n.val % 8, Nat.mod_lt _ (by decide)⟩)
  left_inv := by
    rintro ⟨c, j, r⟩
    have hc := c.isLt; have hj := j.isLt; have hr := r.isLt
    refine Prod.ext (Fin.ext ?_) (Prod.ext (Fin.ext ?_) (Fin.ext ?_)) <;> (simp only [blk]; omega)
  right_inv := by
    intro n
    have hn := n.isLt
    refine Fin.ext ?_
    simp only [blk]; omega

/-- An array held whole is its 256 blocks, grouped by core, subcore and chunk. -/
theorem oPts_cores (d : Dev nD) (f : Buf (Elt F) (oLoc d)) :
    (oLoc d ↦{fullShare} f : sProp 𝕄) = bigSep Finset.univ fun c : Fin 2 => bigSep Finset.univ fun j : Fin 16 => oBlocks d c j f := by
  have h : (oLoc d ↦{fullShare} f : sProp 𝕄) = bigSep Finset.univ fun n : Fin 256 => oLoc d ↦[oSet n]{fullShare} f := by
    rw [← pointsTo_biUnion Finset.univ (ℓ := oLoc d) oSet blocks_disjoint, blocks_cover]; try rfl
  rw [h, bigSep_univ_equiv blkEquiv (fun n : Fin 256 => (oLoc d ↦[oSet n]{fullShare} f : sProp 𝕄)), bigSep_univ_prod]
  refine bigSep_congr fun c _ => ?_
  rw [bigSep_univ_prod]
  rfl

/-! ## The shares of the indices and the table -/

/-- The cores' halves of the inputs and their blocks of the result are the three arrays whole. -/
theorem cores_eq (d : Dev nD) (f : Buf (Elt F) (oLoc d)) :
    (bigSep Finset.univ fun c : Fin 2 => coreRes m d c f)
      = iprop((xLoc d ↦{fullShare} m (xLoc d)) ∗ (tLoc d ↦{fullShare} m (tLoc d)) ∗ oLoc d ↦{fullShare} f) := by
  unfold coreRes
  rw [bigSep_sep', bigSep_sep', ← pointsTo_piecesOf, ← pointsTo_piecesOf, ← oPts_cores]

/-- A core's resources are its tasks' shares and blocks. -/
theorem coreRes_tasks (d : Dev nD) (c : Fin 2) (f : Buf (Elt F) (oLoc d)) :
    coreRes m d c f = iprop((bigSep Finset.univ fun j : Fin 16 => xShare m d c j) ∗ (bigSep Finset.univ fun j : Fin 16 => tShare m d c j)
      ∗ bigSep Finset.univ fun j : Fin 16 => oBlocks d c j f) := by
  unfold coreRes xShare tShare sh32
  rw [← pointsTo_piecesOf, ← pointsTo_piecesOf]

/-- Only subcore 0 is handed the shared memory. -/
theorem shWhole_all (d : Dev nD) (c : Fin τ.nSC) :
    (bigSep Finset.univ fun j : Fin 16 => shWhole (F := F) d c j) = iprop(∃ f, shLoc d c ↦{fullShare} f) := by
  unfold shWhole
  refine (bigSep_filter Finset.univ (fun j : Fin 16 => j.val = 0) (fun _ => (iprop(∃ f, shLoc d c ↦{fullShare} f) : sProp 𝕄))).symm.trans ?_
  rw [show (Finset.univ.filter fun j : Fin 16 => j.val = 0) = {0} by decide, bigSep_singleton]

/-- The sixteen shares of the filled shared copy are the copy whole. -/
theorem shPieces_all (d : Dev nD) (c : Fin τ.nSC) :
    (bigSep Finset.univ fun j : Fin 16 => shPiece m d c j) = (shLoc d c ↦{fullShare} tblSh m d c : sProp 𝕄) := by
  unfold shPiece sh16
  rw [← pointsTo_piecesOf]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- The shared memory is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-! ## A core's operands to its tasks and back -/

theorem vecSplit : (K (F := F)).VecSplit (P m) 0 := by
  intro d c
  show iprop(coreRes m d (Fin.cast nCore_zero c) (m (oLoc d)) ∗ ownBufs (S d (coreOf c))) ⊢ |={Set.univ}=> iprop(
      (bigSep Finset.univ fun i : Fin ((K (F := F)).nSub 0) => iprop(xShare m d (Fin.cast nCore_zero c) (Fin.cast nSub_zero i) ∗ tShare m d (Fin.cast nCore_zero c) (Fin.cast nSub_zero i)
        ∗ shWhole d (coreOf c) (Fin.cast nSub_zero i) ∗ oBlocks d (Fin.cast nCore_zero c) (Fin.cast nSub_zero i) (m (oLoc d))))
      ∗ ((bigSep Finset.univ fun i : Fin ((K (F := F)).nSub 0) => iprop(xShare m d (Fin.cast nCore_zero c) (Fin.cast nSub_zero i) ∗ tShare m d (Fin.cast nCore_zero c) (Fin.cast nSub_zero i)
            ∗ shPiece m d (coreOf c) (Fin.cast nSub_zero i) ∗ oBlocks d (Fin.cast nCore_zero c) (Fin.cast nSub_zero i) (want m d)))
          -∗ iprop(coreRes m d (Fin.cast nCore_zero c) (want m d) ∗ ownBufs (S d (coreOf c)))))
  generalize Fin.cast nCore_zero c = c'
  rw [bigSep_tasks (F := F) (fun i => iprop(xShare m d c' i ∗ tShare m d c' i ∗ shWhole d (coreOf c) i ∗ oBlocks d c' i (m (oLoc d)))),
    bigSep_tasks (F := F) (fun i => iprop(xShare m d c' i ∗ tShare m d c' i ∗ shPiece m d (coreOf c) i ∗ oBlocks d c' i (want m d))),
    bigSep_sep', bigSep_sep', bigSep_sep', bigSep_sep', bigSep_sep', bigSep_sep', ownBufs_S, shWhole_all, shPieces_all,
    coreRes_tasks, coreRes_tasks]
  iintro ⟨⟨Hx, Ht, Ho⟩, Hsh, Hrest⟩; imodintro
  isplitl [Hx Ht Ho Hsh]
  · isplitl [Hx]; · iexact Hx
    isplitl [Ht]; · iexact Ht
    isplitl [Hsh]; · iexact Hsh
    iexact Ho
  iintro ⟨Hx, Ht, Hsh, Ho⟩
  isplitl [Hx Ht Ho]
  · isplitl [Hx]; · iexact Hx
    isplitl [Ht]; · iexact Ht
    iexact Ho
  isplitl [Hsh]; · iexists (tblSh m d (coreOf c)); iexact Hsh
  iexact Hrest

/-! ## The launch element of the ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Subcore `i`'s token in subcore `j`'s cell, for every pair of subcores of a core. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

variable [FloatOps F]

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each vector subcore the sixteen units of its own cell. -/
theorem creds_b : ((P (F := F) m).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every vector subcore is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One subcore's kit out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_with_persistent (S := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_with_persistent (S := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each vector subcore its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_with_persistent (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m)
  isplitr
  · isplitl; · iexists κ; iexact Hinv'
    iexact Hr'
  isplitl [Hat']; · iexact Hat'
  isplitl [Htok']; · iexact Htok'
  iexact Hcred'

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the call takes and what it brings back, over both cores: the three arrays whole. -/
theorem st0_eq (d : Dev nD) : (bigSep Finset.univ fun c : Fin ((K (F := F)).nCore 0) => (P m).st 0 d c)
    = iprop((xLoc d ↦{fullShare} m (xLoc d)) ∗ (tLoc d ↦{fullShare} m (tLoc d)) ∗ oLoc d ↦{fullShare} m (oLoc d)) :=
  (bigSep_cores (F := F) (fun c => coreRes m d c (m (oLoc d)))).trans (cores_eq m d (m (oLoc d)))
theorem dn0_eq (d : Dev nD) : (bigSep Finset.univ fun c : Fin ((K (F := F)).nCore 0) => (P m).dn 0 d c)
    = iprop((xLoc d ↦{fullShare} m (xLoc d)) ∗ (tLoc d ↦{fullShare} m (tLoc d)) ∗ oLoc d ↦{fullShare} want m d) :=
  (bigSep_cores (F := F) (fun c => coreRes m d c (want m d))).trans (cores_eq m d (want m d))

abbrev FIN (d : Dev nD) : sProp 𝕄 := iprop((xLoc d ↦{fullShare} m (xLoc d)) ∗ (tLoc d ↦{fullShare} m (tLoc d)) ∗ (oLoc d ↦{fullShare} want m d))

/-- @main on device `d`'s TensorCore: the one call, from the three arrays whole; the inputs kept, the result the lookup. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ht, Ho⟩, -, -⟩, -⟩
  iapply ((K (F := F)).wp_run (D (F := F)) 𝒱 (EH := EH) (P := P m) κ d 0) $$ [Hst Hx Ht Ho]
  isplitr; · iexact Hctx
  isplitl [Hst]; · iexact Hst
  isplitl [Hx Ht Ho]
  · rw [st0_eq]
    isplitl [Hx]; · iexact Hx
    isplitl [Ht]; · iexact Ht
    iexact Ho
  iintro ⟨Hst, Hdn⟩
  ihave Hdn' := (Entails.of_eq (dn0_eq m d)) $$ Hdn
  imodintro
  isplitl [Hst]; · iexact Hst
  iexact Hdn'

/-! ## What the final memory says -/

def fq (d : Dev nD) (s' : Phys nD τ sig (Elt F)) : Prop :=
  s'.mem.mem (oLoc d) = want m d ∧ s'.mem.mem (xLoc d) = m (xLoc d) ∧ s'.mem.mem (tLoc d) = m (tLoc d)

omit [FloatOps F] in
/-- An array held whole is what the memory holds there. -/
theorem agree_whole (s' : Phys nD τ sig (Elt F)) (ℓ : Loc nD τ sig) (f : Buf (Elt F) ℓ) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

omit [FloatOps F] in
theorem hfin (d : Dev nD) (s' : Phys nD τ sig (Elt F)) : iprop(FIN m d ∗ SI s') ⊢ (⌜fq m d s'⌝ : sProp 𝕄) := by
  have hx : iprop(FIN m d ∗ SI s') ⊢ (⌜s'.mem.mem (xLoc d) = m (xLoc d)⌝ : sProp 𝕄) := by
    iintro ⟨⟨Hx, -, -⟩, HSI⟩
    iapply (agree_whole s' (xLoc d) (m (xLoc d)))
    isplitl [Hx] <;> iassumption
  have ht : iprop(FIN m d ∗ SI s') ⊢ (⌜s'.mem.mem (tLoc d) = m (tLoc d)⌝ : sProp 𝕄) := by
    iintro ⟨⟨-, Ht, -⟩, HSI⟩
    iapply (agree_whole s' (tLoc d) (m (tLoc d)))
    isplitl [Ht] <;> iassumption
  have ho : iprop(FIN m d ∗ SI s') ⊢ (⌜s'.mem.mem (oLoc d) = want m d⌝ : sProp 𝕄) := by
    iintro ⟨⟨-, -, Ho⟩, HSI⟩
    iapply (agree_whole s' (oLoc d) (want m d))
    isplitl [Ho] <;> iassumption
  unfold fq
  exact fun a ha => ⟨ho a ha, hx a ha, ht a ha⟩

/-! ## The program's run -/

def QC : PUnit × MemSt nD τ sig (Elt F) → Prop := fun r =>
  ∀ c : Dev nD, r.2.mem (oLoc c) = want m c ∧ r.2.mem (xLoc c) = m (xLoc c) ∧ r.2.mem (tLoc c) = m (tLoc c)

/-- Every weakly fair execution of the whole program terminates, nothing faulting, the result the lookup and the inputs
    unchanged — given one task's obligation at a symbolic place. -/
theorem run_main [∀ e, Nonempty (Elt F e)] (hobl : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hobl)
    (fun q _ => match q with | 0 => vecSplit m)
    m ρ main (fun _ => iprop(emp)) (FIN m) (u₀ (F := F)) (hu₀ m) (hmain m ρ) (fq m) (hfin m) (QC m) (fun _ h => h)

end Cert.Proof.KB

end
-- ==== Proof.KBTile.lean ====
/-
  One task of the lookup, at a symbolic grid point: its names, its blocks, its cells, and what passes the barrier.

  The task at grid point `L` runs on vector subcore `L 1` of core `L 0` and owns the 512 indices from
  `1024 (L 1) + 512 (L 0)` on. Chunk `r` of its rows of the result — 64 rows from `1024 (L 1) + 512 (L 0) + 64 r` — is block
  `16 (L 1) + 8 (L 0) + r` of the result's 256. A vector subcore's scoped semaphores are exactly its eleven transfer
  semaphores. At the barrier subcore 0, which filled the shared copy of the table, cuts it into sixteen shares and hands
  one to each subcore with its arrival; the others hand over nothing; each subcore finds its share in what its own round
  collected. Once the task's indices have landed in its index scratch, every window of that scratch reads words below
  1000, because the indices are. A share read by eight transfers at once is cut in eight.
-/
import proofs.«203007_g6863357739279_cont_9to1c4b_879_17_alg».proof.Proof.KBCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "xV" => (Memref.whole Cert.Kernel.main_arg0_scv : Memref Cert.Kernel.sig Kind.scVector Space.hbm Cert.Kernel.S16384 EltTy.i32)
local notation "tV" => (Memref.whole Cert.Kernel.main_arg1_scv : Memref Cert.Kernel.sig Kind.scVector Space.hbm Cert.Kernel.S1000x128 EltTy.f32)
local notation "oV" => (Memref.whole Cert.Kernel.main_v0_scv : Memref Cert.Kernel.sig Kind.scVector Space.hbm Cert.Kernel.S16384x128 EltTy.f32)
local notation "iV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512x128 EltTy.f32)
local notation "shV" => (Memref.whole Cert.Kernel.cc0_scratch2 : Memref Cert.Kernel.sig Kind.scVector Space.shared Cert.Kernel.S1000x128 EltTy.f32)

variable [FloatOps F]

section Tile

variable (d : Dev nD) (L : grid0.Coords)

/-- The task at grid point `L` runs on vector subcore `L 1` of core `L 0`. -/
abbrev cV (L : grid0.Coords) : Fin τ.nSC := (L 0).castLE hcore0
abbrev jV (L : grid0.Coords) : Fin τ.nSub := (L 1).castLE hsub0
omit [FloatOps F] in
theorem bound_one : grid0.bound 1 = 16 := rfl
omit [FloatOps F] in
theorem bound_zero : grid0.bound 0 = 2 := rfl
abbrev jL (L : grid0.Coords) : Fin 16 := Fin.cast bound_one (L 1)
abbrev cL (L : grid0.Coords) : Fin 2 := Fin.cast bound_zero (L 0)

/-- Chunk `r` of the task's rows of the result, as the task addresses it: 64 rows from `1024 (L 1) + 512 (L 0) + 64 r`. -/
abbrev oRectK (L : grid0.Coords) (r : Fin 8) : Rect S16384x128 :=
  Rect.unit (s := S16384x128) (k0_off2 L (BitVec.ofNat 32 (64 * r.val))) S64x128.size (k0_off2_inb L r)
abbrev oChunkK (L : grid0.Coords) (r : Fin 8) : Memref sig .scVector .hbm S64x128 .f32 := (oV).slice (oRectK L r) (fun _ => rfl)

omit [FloatOps F] in
/-- It is block `16 (L 1) + 8 (L 0) + r` of the 256. -/
theorem oRectK_eq (r : Fin 8) : oRectK L r = oBlock (blk (cL L) (jL L) r) := by
  unfold oRectK oBlock Rect.part Rect.block
  congr 1 <;> funext a
  · rw [k0_off2_eq]
    match a with
    | 0 => simp [Shape.partIx, Shape.partSize, blk]; omega
    | 1 => simp [Shape.partIx, Shape.partSize]
  · match a with
    | 0 => simp [Shape.partSize]
    | 1 => simp [Shape.partSize]

omit [FloatOps F] in
theorem set_oChunkK (r : Fin 8) : (oChunkK L r).view.set = oSet (blk (cL L) (jL L) r) := by
  show ((oV).view.slice (oRectK L r)).set = ((oV).view.slice (oBlock (blk (cL L) (jL L) r))).set
  rw [oRectK_eq]

omit [FloatOps F] in
theorem pts_oChunkK (r : Fin 8) (f : Buf (Elt F) (oLoc d)) :
    ((oChunkK L r).view.loc (V d (cV L) (jV L)) ↦[(oChunkK L r).view.set]{fullShare} f : sProp 𝕄) = oLoc d ↦[oSet (blk (cL L) (jL L) r)]{fullShare} f := by
  rw [set_oChunkK]

omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_shV (q : PosShare TreeShare) (f : Buf (Elt F) (shLoc d (cV L))) :
    ((shV).view.loc (V d (cV L) (jV L)) ↦{q} f : sProp 𝕄) = shLoc d (cV L) ↦{q} f := rfl
omit [FloatOps F] in
theorem pts_iV (f : Buf (Elt F) ((V d (cV L) (jV L)).loc cc0_scratch0)) :
    ((iV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- A vector subcore's scoped semaphores are its eleven transfer semaphores. -/
abbrev dcell (d : Dev nD) (c : Fin τ.nSC) (i : Fin τ.nSub) (k : Fin 11) : GSem nD τ sig := (V d c i, .dma k)

omit [FloatOps F] in
theorem ownCells_V : ownCells (V d (cV L) (jV L)) = (Finset.univ : Finset (Fin 11)).image (dcell d (cV L) (jV L)) := by
  ext g
  rw [mem_ownCells, Finset.mem_image]
  constructor
  · rintro ⟨h1, h2⟩
    obtain ⟨thr, sm⟩ := g
    dsimp only at h1; subst h1
    cases sm with
    | reg s => exact absurd h2 ((by decide : ∀ s : Sem sig, ¬ ((SemLoc.reg s : SemLoc sig).isScoped .scVector = true)) s)
    | dma k => exact ⟨k, Finset.mem_univ _, rfl⟩
  · rintro ⟨k, -, rfl⟩
    exact ⟨rfl, show (SemLoc.dma k : SemLoc sig).isScoped .scVector = true by revert k; decide⟩

omit [FloatOps F] in
theorem ownSems0_V : (ownSems0 (V d (cV L) (jV L)) : sProp 𝕄) = bigSep Finset.univ fun k : Fin 11 => semVal (dcell d (cV L) (jV L) k) 0 := by
  unfold SparseCore.Cfg.ownSems0
  rw [ownCells_V, SparseCore.bigSep_image_of_injOn (fun a _ b _ e => by
    have := (Prod.mk.inj e).2; exact SemLoc.dma.inj this)]

omit [FloatOps F] in
/-- The index scratch and the row scratch are among the subcore's own buffers. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- The eleven cells, each under the name the task's text gives it. -/
theorem ownSems0_V' : (ownSems0 (V d (cV L) (jV L)) : sProp 𝕄)
    = iprop(semVal (V d (cV L) (jV L), SemLoc.dma cc0_scratch3.sem) 0 ∗ semVal (V d (cV L) (jV L), SemLoc.dma cc0_scratch4.sem) 0
        ∗ semVal (V d (cV L) (jV L), SemLoc.dma cc0_scratch5.sem) 0 ∗ semVal (V d (cV L) (jV L), SemLoc.dma cc0_scratch6.sem) 0
        ∗ semVal (V d (cV L) (jV L), SemLoc.dma cc0_scratch7.sem) 0 ∗ semVal (V d (cV L) (jV L), SemLoc.dma cc0_scratch8.sem) 0
        ∗ semVal (V d (cV L) (jV L), SemLoc.dma cc0_scratch9.sem) 0 ∗ semVal (V d (cV L) (jV L), SemLoc.dma cc0_scratch10.sem) 0
        ∗ semVal (V d (cV L) (jV L), SemLoc.dma cc0_scratch11.sem) 0 ∗ semVal (V d (cV L) (jV L), SemLoc.dma cc0_scoped0.sem) 0
        ∗ semVal (V d (cV L) (jV L), SemLoc.dma cc0_scoped1.sem) 0) := by
  rw [ownSems0_V, show (Finset.univ : Finset (Fin 11)) = {0, 1, 2, 3, 4, 5, 6, 7, 8, 9, 10} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-! ## Around the barrier -/

omit [FloatOps F] in
theorem castLE_cast (j : Fin (grid0.bound 1)) : Fin.cast nSub_eq (j.castLE hsub0) = Fin.cast bound_one j := Fin.ext rfl

/-- Subcore 0, holding the filled shared copy outright, cuts it into the sixteen shares its arrivals hand over. -/
theorem pays_zero (h0 : (L 1).val = 0) : (shLoc d (cV L) ↦{fullShare} tblSh m d (cV L) : sProp 𝕄)
    ⊢ bigSep Finset.univ fun j : Fin (grid0.bound 1) => (bRd (F := F) m).payload (bcell d (cV L) (j.castLE hsub0)) 0 (jV L).val := by
  have hv : (jV L).val = 0 := h0
  rw [hv, pointsTo_piecesOf Finset.univ (tblSh m d (cV L)) (by decide : 0 < 16) fullShare]
  refine Entails.of_eq (bigSep_congr (s := (Finset.univ : Finset (Fin (grid0.bound 1)))) fun j _ => ?_)
  show _ = bPay m (bcell d (cV L) (j.castLE hsub0)) 0
  unfold bPay; dsimp only
  rw [if_pos rfl]
  exact congrArg (fun j' : Fin 16 => (shLoc d (cV L) ↦{sh16 j'} tblSh m d (cV L) : sProp 𝕄)) (Fin.ext rfl)

/-- Any other subcore's arrivals hand over nothing. -/
theorem pays_pos (h0 : ¬ (L 1).val = 0) : (shWhole d (cV L) (jL L) : sProp 𝕄)
    ⊢ bigSep Finset.univ fun j : Fin (grid0.bound 1) => (bRd (F := F) m).payload (bcell d (cV L) (j.castLE hsub0)) 0 (jV L).val := by
  have hv : ¬ (jV L).val = 0 := h0
  unfold shWhole
  rw [if_neg (show ¬ (jL L).val = 0 from h0), show (bigSep Finset.univ fun j : Fin (grid0.bound 1) => (bRd (F := F) m).payload (bcell d (cV L) (j.castLE hsub0)) 0 (jV L).val)
      = bigSep Finset.univ fun _ : Fin (grid0.bound 1) => (iprop(emp) : sProp 𝕄) from bigSep_congr fun j _ => if_neg hv, bigSep_emp']

/-- What a subcore's own round collected holds its share of the filled shared copy: subcore 0's arrival brought it. -/
theorem pays_elim : (bigSep ((bRd (F := F) m).duties (bcell d (cV L) (jV L)) 0 \ ∅) fun n => (bRd (F := F) m).payload (bcell d (cV L) (jV L)) 0 n)
    ⊢ (shPiece m d (cV L) (jL L) : sProp 𝕄) := by
  rw [Finset.sdiff_empty, bRd_duties₀]
  refine (bigSep_elim (i := (0 : ℕ)) (Finset.mem_image.mpr ⟨(⟨0, by decide⟩ : Fin τ.nSub), Finset.mem_univ _, rfl⟩)).trans ?_
  show bPay m (bcell d (cV L) (jV L)) 0 ⊢ _
  unfold bPay; dsimp only
  rw [if_pos rfl]
  exact Entails.of_eq (by rw [show Fin.cast nSub_eq (jV L) = jL L from Fin.ext rfl])

/-! ## The indices the gathers read -/

/-- The task's 512 indices, as it addresses them in the index array. -/
abbrev xRectK (L : grid0.Coords) : Rect S16384 := Rect.unit (s := S16384) (k0_off1 L) S512.size (k0_off1_inb L)
abbrev xSliceK (L : grid0.Coords) : Memref sig .scVector .hbm S512 .i32 := (xV).slice (xRectK L) (fun _ => rfl)

omit [FloatOps F] in
/-- Once the task's indices have landed in the index scratch, every 64-entry window of it reads words below 1000. -/
theorem inb_of_pre (hx : ∀ r, (m (xLoc d) r).toNat < 1000) (fs : Buf (Elt F) ((V d (cV L) (jV L)).loc cc0_scratch0)) (pay : S512.Idx → Elt F .i32)
    (hpay : pay = (xSliceK L).view.read (Elt F) (m (xLoc d))) (R : Rect S512) (h : ∀ a, R.stride a = 1) :
    ∀ y, (((iV).slice R h).view.read (Elt F) (View.write (Elt F) (iV).view fs pay Finset.univ) y).toNat < S1000x128.size gathers_S1000x128_S64x128.axis := by
  subst hpay; intro y
  rw [View.write_whole_univ]
  rw [show ∀ (g : Buf (Elt F) (((iV).slice R h).view.loc (V d (cV L) (jV L)))) j, ((iV).slice R h).view.read (Elt F) g j = g (((iV).slice R h).view.emb j) from fun g j => (View.read_apply _ _).trans (cast_eq _ _)]
  rw [show ∀ j, (xSliceK L).view.read (Elt F) (m (xLoc d)) j = m (xLoc d) ((xSliceK L).view.emb j) from fun j => (View.read_apply _ _).trans (cast_eq _ _)]
  exact hx _

/-! ## One read share per gather, and the result's blocks one by one -/

omit [FloatOps F] in
/-- A share cut in eight, one piece for each of the eight gathers that read the shared copy at once. -/
theorem pts_pieces8 {ℓ : Loc nD τ sig} (f : Buf (Elt F) ℓ) (q : PosShare TreeShare) :
    (ℓ ↦{q} f : sProp 𝕄) = iprop((ℓ ↦{pieceOf q 8 (by decide) 0} f) ∗ (ℓ ↦{pieceOf q 8 (by decide) 1} f) ∗ (ℓ ↦{pieceOf q 8 (by decide) 2} f)
      ∗ (ℓ ↦{pieceOf q 8 (by decide) 3} f) ∗ (ℓ ↦{pieceOf q 8 (by decide) 4} f) ∗ (ℓ ↦{pieceOf q 8 (by decide) 5} f)
      ∗ (ℓ ↦{pieceOf q 8 (by decide) 6} f) ∗ (ℓ ↦{pieceOf q 8 (by decide) 7} f)) := by
  rw [pointsTo_piecesOf Finset.univ f (by decide : 0 < 8) q, show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- Chunk `r` of the task's rows of the result, held outright at contents `f`, as the task addresses it. -/
abbrev oCh (r : Fin 8) (f : Buf (Elt F) (oLoc d)) : sProp 𝕄 :=
  (oChunkK L r).view.loc (V d (cV L) (jV L)) ↦[(oChunkK L r).view.set]{fullShare} f

omit [FloatOps F] in
theorem oBlocks_split (f : Buf (Elt F) (oLoc d)) :
    (oBlocks d (cL L) (jL L) f : sProp 𝕄) = iprop(oCh d L 0 f ∗ oCh d L 1 f ∗ oCh d L 2 f ∗ oCh d L 3 f ∗ oCh d L 4 f ∗ oCh d L 5 f ∗ oCh d L 6 f ∗ oCh d L 7 f) := by
  unfold oBlocks
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  have e : ∀ r, (oLoc d ↦[oSet (blk (cL L) (jL L) r)]{fullShare} f : sProp 𝕄) = oCh d L r f := fun r => (pts_oChunkK d L r f).symm
  rw [e 0, e 1, e 2, e 3, e 4, e 5, e 6, e 7]

end Tile

end Cert.Proof.KB

end
-- ==== Proof.KBValue.lean ====
/-
  What one task leaves in its rows of the result, as pure data.

  The task at grid point `L` owns the 512 indices from `base = 1024 (L 1) + 512 (L 0)` on. It copies them into its
  index scratch, so that the scratch reads `x[base + p]` at `p`. Gather `k` reads the 64 words of the scratch from
  `64 k` on and delivers, at `(p', q)`, entry `q` of the table row that word `64 k + p'` names; it lands in rows
  `[64 k, 64 k + 64)` of the row scratch. All eight pieces therefore agree with ONE function of the row scratch's
  index, `G (p, q) = tbl[rowOf x[base + p], q]` (every index word is below 1000, where the capped row is the word's
  own value). Store `r` reads rows `[64 r, 64 r + 64)` of the row scratch, so its payload at `(p', q)` is
  `G (64 r + p', q)`; it lands at row `base + 64 r + p'` of the result, where the lookup is
  `tbl[rowOf x[base + 64 r + p'], q]`: the same.
-/
import proofs.«203007_g6863357739279_cont_9to1c4b_879_17_alg».proof.Proof.KBTile

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

local notation "xV" => (Memref.whole Cert.Kernel.main_arg0_scv : Memref Cert.Kernel.sig Kind.scVector Space.hbm Cert.Kernel.S16384 EltTy.i32)
local notation "tV" => (Memref.whole Cert.Kernel.main_arg1_scv : Memref Cert.Kernel.sig Kind.scVector Space.hbm Cert.Kernel.S1000x128 EltTy.f32)
local notation "oV" => (Memref.whole Cert.Kernel.main_v0_scv : Memref Cert.Kernel.sig Kind.scVector Space.hbm Cert.Kernel.S16384x128 EltTy.f32)
local notation "iV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512x128 EltTy.f32)
local notation "shV" => (Memref.whole Cert.Kernel.cc0_scratch2 : Memref Cert.Kernel.sig Kind.scVector Space.shared Cert.Kernel.S1000x128 EltTy.f32)

variable [FloatOps F]

section Value

variable (d : Dev nD) (L : grid0.Coords)

/-! ## The payloads, as the run leaves them -/

omit [FloatOps F] in
/-- Window `k` of the index scratch — 64 words from `64 k` on — lies inside it. -/
theorem iWin_inb (k : Fin 8) : ∀ a, (![64 * k.val] : Fin 1 → Nat) a + S64.size a ≤ S512.size a :=
  Fin.forall_fin_one.mpr (by show 64 * k.val + 64 ≤ 512; omega)

omit [FloatOps F] in
/-- Rows `[64 k, 64 k + 64)` of the row scratch lie inside it. -/
theorem rWin_inb (k : Fin 8) : ∀ a, (![64 * k.val, 0] : Fin 2 → Nat) a + S64x128.size a ≤ S512x128.size a :=
  Fin.forall_fin_two.mpr ⟨by show 64 * k.val + 64 ≤ 512; omega, by show 0 + 128 ≤ 128; omega⟩

/-- The index copy's payload: the task's 512 indices, read off the index array. -/
def idxPay : S512.Idx → Elt F .i32 :=
  ReadAs.same.apply (View.read (Elt F) ((xV).slice (Rect.unit (k0_off1 L) S512.size (k0_off1_inb L)) (fun _ => rfl)).view (m (xLoc d)))

/-- Window `k` of the index scratch once the indices have landed in it. -/
abbrev iWin (fi : Buf (Elt F) ((V d (cV L) (jV L)).loc cc0_scratch0)) (k : Fin 8) : S64.Idx → Elt F .i32 :=
  View.read (Elt F) ((iV).slice (Rect.unit ![64 * k.val] S64.size (iWin_inb k)) (fun _ => rfl)).view
    (View.write (Elt F) (iV).view fi (idxPay m d L) Finset.univ)

/-- Gather `k`'s payload: at `(p', q)`, entry `q` of the table row that word `p'` of window `k` names. -/
def gatherPay (fi : Buf (Elt F) ((V d (cV L) (jV L)).loc cc0_scratch0)) (k : Fin 8)
    (h : ∀ x, (iWin m d L fi k x).toNat < S1000x128.size gathers_S1000x128_S64x128.axis) : S64x128.Idx → Elt F .f32 :=
  SparseCore.gatherPayload gathers_S1000x128_S64x128
    (View.read (Elt F) ((shV).slice (Rect.unit ![0, 0] S1000x128.size inb_S1000x128_S1000x128_0_0) (fun _ => rfl)).view (m (tLoc d)))
    (SparseCore.rows (iWin m d L fi k) rfl h)

/-- The row scratch after the eight gathers, the last issued first. -/
def rowsAll (fi : Buf (Elt F) ((V d (cV L) (jV L)).loc cc0_scratch0)) (fr : Buf (Elt F) ((V d (cV L) (jV L)).loc cc0_scratch1))
    (hs : ∀ (k : Fin 8) x, (iWin m d L fi k x).toNat < S1000x128.size gathers_S1000x128_S64x128.axis) :
    Buf (Elt F) ((V d (cV L) (jV L)).loc cc0_scratch1) :=
  (rV).view.writes (Elt F) fr
    [⟨Rect.unit ![448, 0] S64x128.size inb_S512x128_S64x128_448_0, gatherPay m d L fi 7 (hs 7)⟩,
     ⟨Rect.unit ![384, 0] S64x128.size inb_S512x128_S64x128_384_0, gatherPay m d L fi 6 (hs 6)⟩,
     ⟨Rect.unit ![320, 0] S64x128.size inb_S512x128_S64x128_320_0, gatherPay m d L fi 5 (hs 5)⟩,
     ⟨Rect.unit ![256, 0] S64x128.size inb_S512x128_S64x128_256_0, gatherPay m d L fi 4 (hs 4)⟩,
     ⟨Rect.unit ![192, 0] S64x128.size inb_S512x128_S64x128_192_0, gatherPay m d L fi 3 (hs 3)⟩,
     ⟨Rect.unit ![128, 0] S64x128.size inb_S512x128_S64x128_128_0, gatherPay m d L fi 2 (hs 2)⟩,
     ⟨Rect.unit ![64, 0] S64x128.size inb_S512x128_S64x128_64_0, gatherPay m d L fi 1 (hs 1)⟩,
     ⟨Rect.unit ![0, 0] S64x128.size inb_S512x128_S64x128_0_0, gatherPay m d L fi 0 (hs 0)⟩]

/-- Store `r`'s payload: rows `[64 r, 64 r + 64)` of the row scratch after the gathers. -/
def storePay (fi : Buf (Elt F) ((V d (cV L) (jV L)).loc cc0_scratch0)) (fr : Buf (Elt F) ((V d (cV L) (jV L)).loc cc0_scratch1))
    (hs : ∀ (k : Fin 8) x, (iWin m d L fi k x).toNat < S1000x128.size gathers_S1000x128_S64x128.axis) (r : Fin 8) :
    S64x128.Idx → Elt F .f32 :=
  ReadAs.same.apply (View.read (Elt F) ((rV).slice (Rect.unit ![64 * r.val, 0] S64x128.size (rWin_inb r)) (fun _ => rfl)).view
    (rowsAll m d L fi fr hs))

/-! ## Indices by their coordinates' values -/

omit [FloatOps F] in
theorem idx1_ext {n : Nat} {i j : (⟨1, ![n]⟩ : Shape).Idx} (h : (i 0).val = (j 0).val) : i = j := by
  funext a; match a with | ⟨0, _⟩ => exact Fin.ext h

omit [FloatOps F] in
theorem idx2_ext {n0 n1 : Nat} {i j : (⟨2, ![n0, n1]⟩ : Shape).Idx} (h0 : (i 0).val = (j 0).val) (h1 : (i 1).val = (j 1).val) : i = j := by
  funext a; match a with | ⟨0, _⟩ => exact Fin.ext h0 | ⟨1, _⟩ => exact Fin.ext h1

omit [FloatOps F] in
theorem idx1_lt0 {n : Nat} (j : (⟨1, ![n]⟩ : Shape).Idx) : (j 0).val < n := (j 0).isLt

omit [FloatOps F] in
/-- The task's indices lie inside the index array. -/
theorem base_lt (n : Nat) (hn : n < 512) : 1024 * (L 1).val + 512 * (L 0).val + n < 16384 := by
  have h1 : (L 1).val < 16 := (L 1).isLt
  have h0 : (L 0).val < 2 := (L 0).isLt
  omega

/-- Index word `n` of the index array. -/
abbrev xAt (n : Nat) (hn : n < 16384) : BitVec 32 := (m (xLoc d) : S16384.Idx → BitVec 32) (ix1 ⟨n, hn⟩)

omit [FloatOps F] in
theorem xAt_congr {n n' : Nat} (e : n = n') (hn : n < 16384) (hn' : n' < 16384) : xAt m d n hn = xAt m d n' hn' := by
  subst e; rfl

omit [FloatOps F] in
theorem x_eq_xAt (j : S16384.Idx) : (m (xLoc d) : S16384.Idx → BitVec 32) j = xAt m d (j 0).val (idx1_lt0 j) :=
  congrArg (m (xLoc d) : S16384.Idx → BitVec 32) (idx1_ext rfl)

/-- The one function all eight gathers' pieces agree with: at `(p, q)` of the row scratch, entry `q` of the table row
    that the task's `p`-th index names. -/
def rowsWant : S512x128.Idx → Elt F .f32 := fun p =>
  (m (tLoc d) : S1000x128.Idx → Elt F .f32)
    (ix2 (Cert.Lookup.rowOf (xAt m d (1024 * (L 1).val + 512 * (L 0).val + (p 0).val) (base_lt L _ (idx2_lt0 p))))
      (⟨(p 1).val, idx2_lt1 p⟩ : Fin 128))

omit [FloatOps F] in
/-- The index copy's payload at `p` is index word `base + p`. -/
theorem idxPay_apply (p : S512.Idx) : idxPay m d L p = xAt m d (1024 * (L 1).val + 512 * (L 0).val + (p 0).val) (base_lt L _ (idx1_lt0 p)) := by
  have e : idxPay m d L p = (m (xLoc d) : S16384.Idx → BitVec 32) ((xSliceK L).view.emb p) := (View.read_apply _ _).trans (cast_eq _ _)
  rw [e, x_eq_xAt m d]
  refine xAt_congr m d ?_ _ _
  show k0_off1 L 0 + 1 * (p 0).val = _
  rw [k0_off1_eq]
  show 1024 * (L 1).val + 512 * (L 0).val + 1 * (p 0).val = _
  omega

omit [FloatOps F] in
/-- Window `k` of the index scratch reads index word `base + 64 k + p'` at `p'`. -/
theorem iWin_apply (fi : Buf (Elt F) ((V d (cV L) (jV L)).loc cc0_scratch0)) (k : Fin 8) (y : S64.Idx) :
    iWin m d L fi k y = xAt m d (1024 * (L 1).val + 512 * (L 0).val + (64 * k.val + (y 0).val))
      (base_lt L _ (by have := idx1_lt0 y; omega)) := by
  unfold iWin
  rw [View.write_whole_univ]
  rw [show ∀ (g : S512.Idx → Elt F .i32), View.read (Elt F) ((iV).slice (Rect.unit ![64 * k.val] S64.size (iWin_inb k)) (fun _ => rfl)).view g y
      = g ((Rect.unit (s := S512) ![64 * k.val] S64.size (iWin_inb k)).emb y) from fun g => (View.read_apply _ _).trans (cast_eq _ _)]
  rw [idxPay_apply]
  refine xAt_congr m d ?_ _ _
  show 1024 * (L 1).val + 512 * (L 0).val + (64 * k.val + 1 * (y 0).val) = _
  omega

omit [FloatOps F] in
/-- In a rank-1 shape the row-major position is the coordinate. -/
theorem rowMajor_symm_val_one {n : Nat} (j : Fin (⟨1, ![n]⟩ : Shape).numel) :
    (((⟨1, ![n]⟩ : Shape).rowMajor.symm j) 0).val = j.val := by
  have h := Shape.rowMajor_val_one ((⟨1, ![n]⟩ : Shape).rowMajor.symm j)
  rw [Equiv.apply_symm_apply] at h
  exact h.symm

omit [FloatOps F] in
/-- Gather `k`'s payload agrees with the one function at the place its piece lands. -/
theorem gatherPay_apply (hx : ∀ r, (m (xLoc d) r).toNat < 1000) (fi : Buf (Elt F) ((V d (cV L) (jV L)).loc cc0_scratch0)) (k : Fin 8)
    (h : ∀ x, (iWin m d L fi k x).toNat < S1000x128.size gathers_S1000x128_S64x128.axis) (x : S64x128.Idx) :
    gatherPay m d L fi k h x = rowsWant m d L ((Rect.unit (s := S512x128) ![64 * k.val, 0] S64x128.size (rWin_inb k)).emb x) := by
  have e : gatherPay m d L fi k h x = (m (tLoc d) : S1000x128.Idx → Elt F .f32)
      ((Rect.unit (s := S1000x128) ![0, 0] S1000x128.size inb_S1000x128_S1000x128_0_0).emb
        (gathers_S1000x128_S64x128.idx (SparseCore.rows (iWin m d L fi k) rfl h) x)) := by
    show View.read (Elt F) ((shV).slice (Rect.unit ![0, 0] S1000x128.size inb_S1000x128_S1000x128_0_0) (fun _ => rfl)).view (m (tLoc d))
      (gathers_S1000x128_S64x128.idx (SparseCore.rows (iWin m d L fi k) rfl h) x) = _
    exact (View.read_apply _ _).trans (cast_eq _ _)
  rw [e]
  unfold rowsWant
  refine congrArg (m (tLoc d) : S1000x128.Idx → Elt F .f32) (idx2_ext ?_ ?_)
  · show 0 + 1 * (gathers_S1000x128_S64x128.idx (SparseCore.rows (iWin m d L fi k) rfl h) x 0).val = (Cert.Lookup.rowOf _).val
    rw [Cert.Lookup.rowOf_val_of_lt (hx _)]
    have e0 := congrArg Fin.val (Shape.Gathers.idx_axis gathers_S1000x128_S64x128 (SparseCore.rows (iWin m d L fi k) rfl h) x)
    refine (Nat.zero_add _).trans ((Nat.one_mul _).trans (e0.trans ?_))
    show (iWin m d L fi k (S64.rowMajor.symm _)).toNat = _
    rw [iWin_apply]
    refine congrArg BitVec.toNat (xAt_congr m d ?_ _ _)
    rw [rowMajor_symm_val_one]
    show 1024 * (L 1).val + 512 * (L 0).val + (64 * k.val + (x 0).val) = 1024 * (L 1).val + 512 * (L 0).val + (64 * k.val + 1 * (x 0).val)
    omega
  · show 0 + 1 * (gathers_S1000x128_S64x128.idx (SparseCore.rows (iWin m d L fi k) rfl h) x 1).val = 0 + 1 * (x 1).val
    rw [Shape.Gathers.idx_of_ne gathers_S1000x128_S64x128 _ x 1 (by decide)]
    rfl

omit [FloatOps F] in
/-- Where store `r` reads lies under the piece that starts at row `64 r`. -/
theorem mem_rWin (n : Nat) (r : Fin 8) (hn : n = 64 * r.val) (inb : ∀ a, (![n, 0] : Fin 2 → Nat) a + S64x128.size a ≤ S512x128.size a)
    (y : S64x128.Idx) :
    (Rect.unit (s := S512x128) ![64 * r.val, 0] S64x128.size (rWin_inb r)).emb y ∈ (Rect.unit (s := S512x128) ![n, 0] S64x128.size inb).set := by
  subst hn; exact LoadRect.idx_mem (Rect.unit (s := S512x128) ![64 * r.val, 0] S64x128.size (rWin_inb r)).toLoadRect y

omit [FloatOps F] in
/-- Store `r`'s payload is the one function on rows `[64 r, 64 r + 64)`. -/
theorem storePay_apply (hx : ∀ r, (m (xLoc d) r).toNat < 1000) (fi : Buf (Elt F) ((V d (cV L) (jV L)).loc cc0_scratch0))
    (fr : Buf (Elt F) ((V d (cV L) (jV L)).loc cc0_scratch1))
    (hs : ∀ (k : Fin 8) x, (iWin m d L fi k x).toNat < S1000x128.size gathers_S1000x128_S64x128.axis) (r : Fin 8) (y : S64x128.Idx) :
    storePay m d L fi fr hs r y = rowsWant m d L ((Rect.unit (s := S512x128) ![64 * r.val, 0] S64x128.size (rWin_inb r)).emb y) := by
  have e : storePay m d L fi fr hs r y = View.read (Elt F) (rV).view (rowsAll m d L fi fr hs)
      ((Rect.unit (s := S512x128) ![64 * r.val, 0] S64x128.size (rWin_inb r)).emb y) := rfl
  rw [e]
  unfold rowsAll
  refine View.read_writes_apply_of_pieces (rV).view fr (rowsWant m d L) _ ?_ _ ?_
  · intro p hp
    simp only [List.mem_cons, List.not_mem_nil, or_false] at hp
    rcases hp with rfl | rfl | rfl | rfl | rfl | rfl | rfl | rfl
    · exact fun x => gatherPay_apply m d L hx fi 7 (hs 7) x
    · exact fun x => gatherPay_apply m d L hx fi 6 (hs 6) x
    · exact fun x => gatherPay_apply m d L hx fi 5 (hs 5) x
    · exact fun x => gatherPay_apply m d L hx fi 4 (hs 4) x
    · exact fun x => gatherPay_apply m d L hx fi 3 (hs 3) x
    · exact fun x => gatherPay_apply m d L hx fi 2 (hs 2) x
    · exact fun x => gatherPay_apply m d L hx fi 1 (hs 1) x
    · exact fun x => gatherPay_apply m d L hx fi 0 (hs 0) x
  · rcases r with ⟨n, hn⟩
    interval_cases n
    · exact ⟨⟨Rect.unit ![0, 0] S64x128.size inb_S512x128_S64x128_0_0, gatherPay m d L fi 0 (hs 0)⟩, List.mem_cons_of_mem _ (List.mem_cons_of_mem _ (List.mem_cons_of_mem _ (List.mem_cons_of_mem _ (List.mem_cons_of_mem _ (List.mem_cons_of_mem _ (List.mem_cons_of_mem _ (List.mem_cons_self))))))), mem_rWin 0 ⟨0, hn⟩ rfl inb_S512x128_S64x128_0_0 y⟩
    · exact ⟨⟨Rect.unit ![64, 0] S64x128.size inb_S512x128_S64x128_64_0, gatherPay m d L fi 1 (hs 1)⟩, List.mem_cons_of_mem _ (List.mem_cons_of_mem _ (List.mem_cons_of_mem _ (List.mem_cons_of_mem _ (List.mem_cons_of_mem _ (List.mem_cons_of_mem _ (List.mem_cons_self)))))), mem_rWin 64 ⟨1, hn⟩ rfl inb_S512x128_S64x128_64_0 y⟩
    · exact ⟨⟨Rect.unit ![128, 0] S64x128.size inb_S512x128_S64x128_128_0, gatherPay m d L fi 2 (hs 2)⟩, List.mem_cons_of_mem _ (List.mem_cons_of_mem _ (List.mem_cons_of_mem _ (List.mem_cons_of_mem _ (List.mem_cons_of_mem _ (List.mem_cons_self))))), mem_rWin 128 ⟨2, hn⟩ rfl inb_S512x128_S64x128_128_0 y⟩
    · exact ⟨⟨Rect.unit ![192, 0] S64x128.size inb_S512x128_S64x128_192_0, gatherPay m d L fi 3 (hs 3)⟩, List.mem_cons_of_mem _ (List.mem_cons_of_mem _ (List.mem_cons_of_mem _ (List.mem_cons_of_mem _ (List.mem_cons_self)))), mem_rWin 192 ⟨3, hn⟩ rfl inb_S512x128_S64x128_192_0 y⟩
    · exact ⟨⟨Rect.unit ![256, 0] S64x128.size inb_S512x128_S64x128_256_0, gatherPay m d L fi 4 (hs 4)⟩, List.mem_cons_of_mem _ (List.mem_cons_of_mem _ (List.mem_cons_of_mem _ (List.mem_cons_self))), mem_rWin 256 ⟨4, hn⟩ rfl inb_S512x128_S64x128_256_0 y⟩
    · exact ⟨⟨Rect.unit ![320, 0] S64x128.size inb_S512x128_S64x128_320_0, gatherPay m d L fi 5 (hs 5)⟩, List.mem_cons_of_mem _ (List.mem_cons_of_mem _ (List.mem_cons_self)), mem_rWin 320 ⟨5, hn⟩ rfl inb_S512x128_S64x128_320_0 y⟩
    · exact ⟨⟨Rect.unit ![384, 0] S64x128.size inb_S512x128_S64x128_384_0, gatherPay m d L fi 6 (hs 6)⟩, List.mem_cons_of_mem _ (List.mem_cons_self), mem_rWin 384 ⟨6, hn⟩ rfl inb_S512x128_S64x128_384_0 y⟩
    · exact ⟨⟨Rect.unit ![448, 0] S64x128.size inb_S512x128_S64x128_448_0, gatherPay m d L fi 7 (hs 7)⟩, List.mem_cons_self, mem_rWin 448 ⟨7, hn⟩ rfl inb_S512x128_S64x128_448_0 y⟩

omit [FloatOps F] in
/-- Chunk `r` of the result, after store `r` has landed in it, holds the lookup. -/
theorem oCh_value (hx : ∀ r, (m (xLoc d) r).toNat < 1000) (fi : Buf (Elt F) ((V d (cV L) (jV L)).loc cc0_scratch0))
    (fr : Buf (Elt F) ((V d (cV L) (jV L)).loc cc0_scratch1))
    (hs : ∀ (k : Fin 8) x, (View.read (Elt F) ((iV).slice (Rect.unit ![64 * k.val] S64.size (iWin_inb k)) (fun _ => rfl)).view
        (View.write (Elt F) (iV).view fi (idxPay m d L) Finset.univ) x).toNat < S1000x128.size gathers_S1000x128_S64x128.axis) (r : Fin 8) :
    (oCh d L r ((oChunkK L r).view.writes (Elt F) (m (oLoc d)) [⟨Rect.whole S64x128, storePay m d L fi fr hs r⟩]) : sProp 𝕄)
      = oCh d L r (want m d) := by
  refine pointsTo_congr fun i hi => ?_
  obtain ⟨y, -, rfl⟩ := Finset.mem_map.mp hi
  have hrd : ∀ g : Buf (Elt F) (oLoc d), (oChunkK L r).view.read (Elt F) g y = g ((oChunkK L r).view.emb y) :=
    fun g => (View.read_apply _ _).trans (cast_eq _ _)
  have e1 := View.read_writes_cons_emb (oChunkK L r).view (m (oLoc d)) (Rect.whole S64x128) (storePay m d L fi fr hs r) [] y
  rw [Rect.emb_whole_apply] at e1
  refine (hrd _).symm.trans (e1.trans ?_)
  rw [storePay_apply m d L hx]
  show rowsWant m d L _ = Cert.Lookup.rows (m (xLoc d) : S16384.Idx → BitVec 32) (m (tLoc d) : S1000x128.Idx → Elt F .f32) ((oRectK L r).emb y)
  unfold rowsWant Cert.Lookup.rows
  refine congrArg (m (tLoc d) : S1000x128.Idx → Elt F .f32) (idx2_ext ?_ ?_)
  · refine congrArg (fun w => (Cert.Lookup.rowOf w).val) (xAt_congr m d ?_ _ _)
    show 1024 * (L 1).val + 512 * (L 0).val + (64 * r.val + 1 * (y 0).val) = k0_off2 L (BitVec.ofNat 32 (64 * r.val)) 0 + 1 * (y 0).val
    rw [k0_off2_eq]
    show _ = 1024 * (L 1).val + 512 * (L 0).val + 64 * r.val + 1 * (y 0).val
    omega
  · show 0 + 1 * (y 1).val = k0_off2 L (BitVec.ofNat 32 (64 * r.val)) 1 + 1 * (y 1).val
    rw [k0_off2_eq]
    rfl

end Value

end Cert.Proof.KB

end
-- ==== Proof.KBBody.lean ====
/-
  One task of the lookup, proved at a symbolic grid point, and with it every task of the call.

  The task first — on subcore 0 only — copies the table into the core's shared memory and waits for the copy; copies
  its 512 indices into its index scratch and waits; arrives at the barrier, where subcore 0 hands each subcore a share of
  the filled shared copy; starts eight gathers, each of the 64 table rows that one window of the index scratch names,
  into the matching 64 rows of its row scratch, each on a semaphore of its own, reading the shared copy through one
  eighth of its share; then, chunk by chunk, waits for the gather and starts the store of those 64 rows to the chunk's
  block of the result, all eight stores on one semaphore, counted, and finally drains them with eight waits. Between
  the first store's issue and the last wait nothing touches a store's rows of the scratch or its block of the result:
  the gathers still in flight land in later chunks. Every index being below 1000, every gather's words name rows of
  the table. At the return each block of the result holds the lookup (Proof/KIValue.lean), the shares are whole again,
  the semaphores are at zero.
-/
import proofs.«203007_g6863357739279_cont_9to1c4b_879_17_alg».proof.Proof.KBTile
import proofs.«203007_g6863357739279_cont_9to1c4b_879_17_alg».proof.Proof.KBValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "xV" => (Memref.whole Cert.Kernel.main_arg0_scv : Memref Cert.Kernel.sig Kind.scVector Space.hbm Cert.Kernel.S16384 EltTy.i32)
local notation "tV" => (Memref.whole Cert.Kernel.main_arg1_scv : Memref Cert.Kernel.sig Kind.scVector Space.hbm Cert.Kernel.S1000x128 EltTy.f32)
local notation "oV" => (Memref.whole Cert.Kernel.main_v0_scv : Memref Cert.Kernel.sig Kind.scVector Space.hbm Cert.Kernel.S16384x128 EltTy.f32)
local notation "iV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512x128 EltTy.f32)
local notation "shV" => (Memref.whole Cert.Kernel.cc0_scratch2 : Memref Cert.Kernel.sig Kind.scVector Space.shared Cert.Kernel.S1000x128 EltTy.f32)

variable [FloatOps F]

section Tile

variable (d : Dev nD) (L : grid0.Coords)

/-- The task's text asks "is this subcore 0?" of the subcore's number. -/
abbrev isSub0 (L : grid0.Coords) : Prop :=
  Scalar.cmpi .ne (Scalar.extui (Scalar.cmpi .eq (BitVec.ofNat 32 (L 1).val) 0#32) : BitVec 32) 0#32 = 1#1

omit [FloatOps F] in
theorem isSub0_iff : isSub0 L ↔ (L 1).val = 0 := by
  unfold isSub0
  have h : (L 1).val < 16 := (L 1).isLt
  generalize (L 1).val = n at h ⊢
  interval_cases n <;> decide

omit [FloatOps F] in
/-- Subcore 0's copy of the table into the shared memory leaves the table there, whatever was there before. -/
theorem shared_filled (fsh : Buf (Elt F) (shLoc d (cV L))) (pay : S1000x128.Idx → Elt F .f32) (hpay : pay = (tV).view.read (Elt F) (m (tLoc d))) :
    ((shV).view.loc (V d (cV L) (jV L)) ↦{fullShare} View.write (Elt F) (shV).view fsh pay Finset.univ : sProp 𝕄)
      = shLoc d (cV L) ↦{fullShare} tblSh m d (cV L) := by
  subst hpay
  rw [View.write_whole_univ]
  rfl

omit [FloatOps F] in
/-- A wait recorded at no index, or at the call's, keeps the record within what the task may leave. -/
theorem ok_insert {W W' : Waits sig (HIx 1)} (a : SemLoc sig × HIx 1) (ha : a.2 = none ∨ a.2 = some (0 : Fin 1))
    (h : ∀ p ∈ W', p ∈ W ∨ p.2 = none ∨ p.2 = some (0 : Fin 1)) : ∀ p ∈ insert a W', p ∈ W ∨ p.2 = none ∨ p.2 = some (0 : Fin 1) := by
  intro p hp
  rcases Finset.mem_insert.mp hp with rfl | hp
  · exact .inr ha
  · exact h p hp

set_option maxRecDepth 100000 in
set_option maxHeartbeats 1600000 in
/-- The task on vector subcore `(L 0, L 1)`: subcore 0 fills the shared copy of the table; the task's indices into its
    index scratch; the barrier, where the filled copy is shared out; eight gathers of 64 table rows each, one semaphore
    apiece, then per chunk the gather's wait and the chunk's store to the result, the eight stores counted on one
    semaphore and drained by eight waits. No store's source or target is touched between its issue and the last wait. -/
theorem tile_body (hF : (K (F := F)).Facts) (hx : ∀ r, (m (xLoc d) r).toNat < 1000)
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (xShare m d (cL L) (jL L) ∗ tShare m d (cL L) (jL L) ∗ shWhole d (cV L) (jL L) ∗ oBlocks d (cL L) (jL L) (m (oLoc d)))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_gather_kernel L xV (Memref.isWhole_whole _) tV (Memref.isWhole_whole _) oV (Memref.isWhole_whole _)
            iV (Memref.isWhole_whole _) rV (Memref.isWhole_whole _) shV (Memref.isWhole_whole _)
            cc0_scratch3 cc0_scratch4 cc0_scratch5 cc0_scratch6 cc0_scratch7 cc0_scratch8 cc0_scratch9 cc0_scratch10 cc0_scratch11 cc0_scoped0 cc0_scoped1)
          fun _ => iprop((xShare m d (cL L) (jL L) ∗ tShare m d (cL L) (jL L) ∗ shPiece m d (cV L) (jL L) ∗ oBlocks d (cL L) (jL L) (want m d))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0_gather_kernel_eq_skeleton]; unfold cc0_gather_kernel_skel
  simp only [k0_part6_eq_skeleton]; unfold k0_part6_skel
  simp only [k0_part1_eq_skeleton]; unfold k0_part1_skel
  rw [(K (F := F)).scopedBufs_V hF d (cV L) (jV L), SparseCore.Cfg.scopedSems0_V (Val := Elt F) d (cV L) (jV L), ownSems0_V', ownBufs_V]
  unfold bkit
  iintro ⟨#Hlv, ⟨⟨%κ, #Hinv⟩, Htoks, #Hrch, Hat, Hcred⟩, ⟨Hx, Ht, Hshw, Hob⟩, ⟨⟨%fi, Hi⟩, ⟨%fr, Hr⟩, Hbufs⟩, ⟨Hg0, Hg1, Hg2, Hg3, Hg4, Hg5, Hg6, Hg7, Hst, Hsa, Hsb⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xV (F := F) d L _ _).symm) $$ Hx
  ihave Ht' := (Entails.of_eq (pts_tV (F := F) d L _ _).symm) $$ Ht
  ihave Hi' := (Entails.of_eq (pts_iV (F := F) d L _).symm) $$ Hi
  ihave Hr' := (Entails.of_eq (pts_rV (F := F) d L _).symm) $$ Hr
  have hin := inb_of_pre (F := F) m d L hx fi ((xSliceK L).view.read (Elt F) (m (xLoc d))) rfl
  have _plan : Transfers.BatchOf (V d (cV L) (jV L)) (SemLoc.dma (sig := sig) cc0_scratch11.sem) 8 := trivial
  by_cases h0 : (L 1).val = 0
  · have hc : isSub0 L := (isSub0_iff L).mpr h0
    ihave Hshw' := (Entails.of_eq (show (shWhole d (cV L) (jL L) : sProp 𝕄) = iprop(∃ f, shLoc d (cV L) ↦{fullShare} f) from if_pos h0)) $$ Hshw
    icases Hshw' with ⟨%fsh, Hsh0⟩
    ihave Hsh0' := (Entails.of_eq (pts_shV (F := F) d L _ _).symm) $$ Hsh0
    sl_exec
    ihave Hpays := (pays_zero (F := F) m d L h0) $$ [Hsh0']
    · iapply (Entails.of_eq (shared_filled (F := F) m d L fsh ((tV).view.read (Elt F) (m (tLoc d))) rfl)); iexact Hsh0'
    rw [bind_assoc]
    iapply (SparseCore.wp_subcoreBarrier 𝒱₀ none EB (bRd (F := F) m) d (sc := cV L) (i := jV L) sc_bar0 (grid0.bound 1) hsub0 (L 1) rfl κ (fun _ => 0) (jV L).val
        (fun j => bRd_mem₀ m d _ _ _) (fun _ => rfl) (bRd_expect m d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := V d (cV L) (jV L)) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hsh := (pays_elim (F := F) m d L) $$ Hgot
    ihave Hsh' := (Entails.of_eq (pts_shV (F := F) d L _ _).symm) $$ Hsh
    ihave Hsh8 := (Entails.of_eq (pts_pieces8 (F := F) (ℓ := View.loc (V d (cV L) (jV L)) (shV).view) (tblSh m d (cV L)) (sh16 (jL L)))) $$ Hsh'
    icases Hsh8 with ⟨Hs0, Hs1, Hs2, Hs3, Hs4, Hs5, Hs6, Hs7⟩
    ihave Hob8 := (Entails.of_eq (oBlocks_split (F := F) d L (m (oLoc d)))) $$ Hob
    icases Hob8 with ⟨Ho0, Ho1, Ho2, Ho3, Ho4, Ho5, Ho6, Ho7⟩
    sl_exec
    sl_step
    isplitl [Hx' Ht' Hs0 Hs1 Hs2 Hs3 Hs4 Hs5 Hs6 Hs7 Ho0 Ho1 Ho2 Ho3 Ho4 Ho5 Ho6 Ho7]
    · isplitl [Hx']; · iapply (Entails.of_eq (pts_xV (F := F) d L _ _)); iexact Hx'
      isplitl [Ht']; · iapply (Entails.of_eq (pts_tV (F := F) d L _ _)); iexact Ht'
      isplitl [Hs0 Hs1 Hs2 Hs3 Hs4 Hs5 Hs6 Hs7]
      · iapply (Entails.of_eq (pts_shV (F := F) d L _ _))
        iapply (Entails.of_eq (pts_pieces8 (F := F) (ℓ := View.loc (V d (cV L) (jV L)) (shV).view) (tblSh m d (cV L)) (sh16 (jL L))).symm)
        isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        isplitl [Hs6]; · iexact Hs6
        iexact Hs7
      iapply (Entails.of_eq (oBlocks_split (F := F) d L (want m d)).symm)
      isplitl [Ho0]; · iapply (Entails.of_eq (oCh_value (F := F) m d L hx fi fr (fun k x => hin _ _ x) 0)); iexact Ho0
      isplitl [Ho1]; · iapply (Entails.of_eq (oCh_value (F := F) m d L hx fi fr (fun k x => hin _ _ x) 1)); iexact Ho1
      isplitl [Ho2]; · iapply (Entails.of_eq (oCh_value (F := F) m d L hx fi fr (fun k x => hin _ _ x) 2)); iexact Ho2
      isplitl [Ho3]; · iapply (Entails.of_eq (oCh_value (F := F) m d L hx fi fr (fun k x => hin _ _ x) 3)); iexact Ho3
      isplitl [Ho4]; · iapply (Entails.of_eq (oCh_value (F := F) m d L hx fi fr (fun k x => hin _ _ x) 4)); iexact Ho4
      isplitl [Ho5]; · iapply (Entails.of_eq (oCh_value (F := F) m d L hx fi fr (fun k x => hin _ _ x) 5)); iexact Ho5
      isplitl [Ho6]; · iapply (Entails.of_eq (oCh_value (F := F) m d L hx fi fr (fun k x => hin _ _ x) 6)); iexact Ho6
      iapply (Entails.of_eq (oCh_value (F := F) m d L hx fi fr (fun k x => hin _ _ x) 7)); iexact Ho7
    isplitl [Hi' Hr' Hbufs]
    · isplitl [Hi']; · iexists _; iapply (Entails.of_eq (pts_iV (F := F) d L _)); iexact Hi'
      isplitl [Hr']; · iexists _; iapply (Entails.of_eq (pts_rV (F := F) d L _)); iexact Hr'
      iexact Hbufs
    isplitl [Hg0 Hg1 Hg2 Hg3 Hg4 Hg5 Hg6 Hg7 Hst Hsa Hsb]
    · isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Hg6]; · iexact Hg6
      isplitl [Hg7]; · iexact Hg7
      isplitl [Hst]; · iexact Hst
      isplitl [Hsa]; · iexact Hsa
      iexact Hsb
    iexists _; isplitr
    swap; · iexact HO
    ipureintro
    repeat (first | exact fun p hp => Or.inl hp | refine ok_insert _ (by first | exact Or.inl rfl | exact Or.inr rfl) ?_)
  · have hc : ¬ isSub0 L := fun h => h0 ((isSub0_iff L).mp h)
    sl_exec
    ihave Hpays := (pays_pos (F := F) m d L h0) $$ [Hshw]
    · iexact Hshw
    rw [bind_assoc]
    iapply (SparseCore.wp_subcoreBarrier 𝒱₀ none EB (bRd (F := F) m) d (sc := cV L) (i := jV L) sc_bar0 (grid0.bound 1) hsub0 (L 1) rfl κ (fun _ => 0) (jV L).val
        (fun j => bRd_mem₀ m d _ _ _) (fun _ => rfl) (bRd_expect m d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := V d (cV L) (jV L)) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hsh := (pays_elim (F := F) m d L) $$ Hgot
    ihave Hsh' := (Entails.of_eq (pts_shV (F := F) d L _ _).symm) $$ Hsh
    ihave Hsh8 := (Entails.of_eq (pts_pieces8 (F := F) (ℓ := View.loc (V d (cV L) (jV L)) (shV).view) (tblSh m d (cV L)) (sh16 (jL L)))) $$ Hsh'
    icases Hsh8 with ⟨Hs0, Hs1, Hs2, Hs3, Hs4, Hs5, Hs6, Hs7⟩
    ihave Hob8 := (Entails.of_eq (oBlocks_split (F := F) d L (m (oLoc d)))) $$ Hob
    icases Hob8 with ⟨Ho0, Ho1, Ho2, Ho3, Ho4, Ho5, Ho6, Ho7⟩
    sl_exec
    sl_step
    isplitl [Hx' Ht' Hs0 Hs1 Hs2 Hs3 Hs4 Hs5 Hs6 Hs7 Ho0 Ho1 Ho2 Ho3 Ho4 Ho5 Ho6 Ho7]
    · isplitl [Hx']; · iapply (Entails.of_eq (pts_xV (F := F) d L _ _)); iexact Hx'
      isplitl [Ht']; · iapply (Entails.of_eq (pts_tV (F := F) d L _ _)); iexact Ht'
      isplitl [Hs0 Hs1 Hs2 Hs3 Hs4 Hs5 Hs6 Hs7]
      · iapply (Entails.of_eq (pts_shV (F := F) d L _ _))
        iapply (Entails.of_eq (pts_pieces8 (F := F) (ℓ := View.loc (V d (cV L) (jV L)) (shV).view) (tblSh m d (cV L)) (sh16 (jL L))).symm)
        isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        isplitl [Hs6]; · iexact Hs6
        iexact Hs7
      iapply (Entails.of_eq (oBlocks_split (F := F) d L (want m d)).symm)
      isplitl [Ho0]; · iapply (Entails.of_eq (oCh_value (F := F) m d L hx fi fr (fun k x => hin _ _ x) 0)); iexact Ho0
      isplitl [Ho1]; · iapply (Entails.of_eq (oCh_value (F := F) m d L hx fi fr (fun k x => hin _ _ x) 1)); iexact Ho1
      isplitl [Ho2]; · iapply (Entails.of_eq (oCh_value (F := F) m d L hx fi fr (fun k x => hin _ _ x) 2)); iexact Ho2
      isplitl [Ho3]; · iapply (Entails.of_eq (oCh_value (F := F) m d L hx fi fr (fun k x => hin _ _ x) 3)); iexact Ho3
      isplitl [Ho4]; · iapply (Entails.of_eq (oCh_value (F := F) m d L hx fi fr (fun k x => hin _ _ x) 4)); iexact Ho4
      isplitl [Ho5]; · iapply (Entails.of_eq (oCh_value (F := F) m d L hx fi fr (fun k x => hin _ _ x) 5)); iexact Ho5
      isplitl [Ho6]; · iapply (Entails.of_eq (oCh_value (F := F) m d L hx fi fr (fun k x => hin _ _ x) 6)); iexact Ho6
      iapply (Entails.of_eq (oCh_value (F := F) m d L hx fi fr (fun k x => hin _ _ x) 7)); iexact Ho7
    isplitl [Hi' Hr' Hbufs]
    · isplitl [Hi']; · iexists _; iapply (Entails.of_eq (pts_iV (F := F) d L _)); iexact Hi'
      isplitl [Hr']; · iexists _; iapply (Entails.of_eq (pts_rV (F := F) d L _)); iexact Hr'
      iexact Hbufs
    isplitl [Hg0 Hg1 Hg2 Hg3 Hg4 Hg5 Hg6 Hg7 Hst Hsa Hsb]
    · isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Hg6]; · iexact Hg6
      isplitl [Hg7]; · iexact Hg7
      isplitl [Hst]; · iexact Hst
      isplitl [Hsa]; · iexact Hsa
      iexact Hsb
    iexists _; isplitr
    swap; · iexact HO
    ipureintro
    repeat (first | exact fun p hp => Or.inl hp | refine ok_insert _ (by first | exact Or.inl rfl | exact Or.inr rfl) ?_)

end Tile

/-! ## The obligation -/

/-- The grid point of subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          xV (Memref.isWhole_whole _) tV (Memref.isWhole_whole _) oV (Memref.isWhole_whole _) iV (Memref.isWhole_whole _) rV (Memref.isWhole_whole _) shV (Memref.isWhole_whole _)
          cc0_scratch3 cc0_scratch4 cc0_scratch5 cc0_scratch6 cc0_scratch7 cc0_scratch8 cc0_scratch9 cc0_scratch10 cc0_scratch11 cc0_scoped0 cc0_scoped1) ⟨⟩ c s := rfl

set_option maxRecDepth 16384 in
/-- Every task of the call, given that every index word on every device is below 1000. -/
theorem tileObl (hF : (K (F := F)).Facts) (hx : ∀ d r, (m (xLoc d) r).toNat < 1000) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF (hx d) O W hO hOlev

end Cert.Proof.KB

end
-- ==== Proof.lean ====
/-
  An embedding lookup: `out[r, c] = tbl[x[r], c]` for 16384 indices into a table of 1000 rows of 128 entries, under the
  precondition that every table entry is finite and every index lies in [0, 999].

  The kernel spreads the indices over thirty-two tasks, sixteen vector subcores on each of two cores; on each core
  subcore 0 copies the table into the core's shared memory, the sixteen meet at a barrier, and each task gathers the
  rows its 512 indices name out of the shared copy and stores them to its 512 rows of the result. Its run ends with the
  result array holding the lookup and the two argument arrays unchanged (Proof/KILaunch.lean from one task's obligation,
  Proof/KIBody.lean; the same text read at the word level in Proof/KBLaunch.lean and Proof/KBBody.lean): the two frames of
  the kernel are that run with the result dropped. The reference takes the rows with the library's gather, after wrapping
  negative indices and masking indices out of range, neither of which acts on an index in [0, 999]; its run ends with
  the same function of the arguments (Proof/RefRun.lean), so the two results are equal entry by entry. No arithmetic
  on the table's entries is involved: the equality is one of positions, and it holds on all extended reals.
-/
import proofs.«203007_g6863357739279_cont_9to1c4b_879_17_alg».proof.Defs
import proofs.«203007_g6863357739279_cont_9to1c4b_879_17_alg».proof.Proof.Gen.Kernel
import proofs.«203007_g6863357739279_cont_9to1c4b_879_17_alg».proof.Proof.Gen.Kernel.Skeleton
import proofs.«203007_g6863357739279_cont_9to1c4b_879_17_alg».proof.Proof.Gen.KernelIdeal
import proofs.«203007_g6863357739279_cont_9to1c4b_879_17_alg».proof.Proof.Gen.KernelIdeal.Skeleton
import proofs.«203007_g6863357739279_cont_9to1c4b_879_17_alg».proof.Proof.Gen.ReferenceIdeal
import proofs.«203007_g6863357739279_cont_9to1c4b_879_17_alg».proof.Proof.Gen.Pre_input_domain
import proofs.«203007_g6863357739279_cont_9to1c4b_879_17_alg».proof.Proof.PreRange
import proofs.«203007_g6863357739279_cont_9to1c4b_879_17_alg».proof.Proof.RefRun
import proofs.«203007_g6863357739279_cont_9to1c4b_879_17_alg».proof.Proof.KILaunch
import proofs.«203007_g6863357739279_cont_9to1c4b_879_17_alg».proof.Proof.KIBody
import proofs.«203007_g6863357739279_cont_9to1c4b_879_17_alg».proof.Proof.KBLaunch
import proofs.«203007_g6863357739279_cont_9to1c4b_879_17_alg».proof.Proof.KBBody
import Idealize.ShloMosaic.Adequacy
import Idealize.ShloMosaic.Init

noncomputable section

namespace Cert.Proof

open Idealize.ShloMosaic Idealize.SL.Sem

/-- Under the precondition every index word, on every device, is below 1000: at the word level, -/
theorem idx_lt_K (m : (ℓ : Loc Cert.Kernel.nD Cert.Kernel.τ Cert.Kernel.sig) → Buf (Elt Bits) ℓ) (hpre : Cert.Pre_Kernel m) :
    ∀ d r, (m (Cert.Proof.KB.xLoc d) r).toNat < 1000 :=
  fun d => Cert.PreRange.idx_lt (F := Bits) _ _ (hpre d)

/-- and at the ideal instance. -/
theorem idx_lt_KI (m : (ℓ : Loc Cert.KernelIdeal.nD Cert.KernelIdeal.τ Cert.KernelIdeal.sig) → Buf (Elt Ideal) ℓ) (hpre : Cert.Pre_KernelIdeal m) :
    ∀ d r, (m (Cert.Proof.KI.xLoc d) r).toNat < 1000 :=
  fun d => Cert.PreRange.idx_lt (F := Ideal) _ _ (hpre d)

/-- The kernel's run at the word level, the result forgotten. -/
theorem frame_p : Cert.frame_Kernel := fun m g hpre =>
  (θ_run (Cert.Kernel.defs (F := Bits)) _ _).mono (fun _ h c => ⟨(h c).2.1, (h c).2.2⟩)
    (Cert.Proof.KB.run_main (F := Bits) m g (Cert.Proof.KB.tileObl m Cert.Proof.KB.facts (idx_lt_K m hpre)))

/-- The kernel's run at the ideal instance, the result forgotten. -/
theorem frame_pi : Cert.frame_KernelIdeal := fun m g hpre =>
  (θ_run (Cert.KernelIdeal.defs (F := Ideal)) _ _).mono (fun _ h c => ⟨(h c).2.1, (h c).2.2⟩)
    (Cert.Proof.KI.run_main (F := Ideal) m g (Cert.Proof.KI.tileObl m Cert.Proof.KI.facts (idx_lt_KI m hpre)))

/-- The reference's run, the result forgotten. -/
theorem frame_ri : Cert.frame_ReferenceIdeal := fun m g hpre =>
  (θ_run (Cert.ReferenceIdeal.defs (F := Ideal)) _ _).mono (fun _ h c => ⟨(h c).2.1, (h c).2.2⟩)
    (Cert.ReferenceIdeal.RefValue.run m g (fun c r => Cert.PreRange.idx_range (F := Ideal) _ _ (hpre c) r))

/-- The ideal pass rewrote nothing: there is nothing to preserve. -/
theorem preserves : Cert.preserves_Kernel_KernelIdeal := trivial

/-- Both programs, from memories that agree on the indices and the table, end with the lookup of those arguments in
    their result arrays. -/
theorem algebraic : Cert.algebraic_KernelIdeal_ReferenceIdeal := by
  intro m g m' g' hpre hagree
  refine ⟨fun c => Cert.Proof.KI.want m c,
    Cert.Proof.KI.run_main (F := Ideal) m g (Cert.Proof.KI.tileObl m Cert.Proof.KI.facts (idx_lt_KI m hpre)), ?_⟩
  have hx' : ∀ (c : Dev Cert.ReferenceIdeal.nD) r,
      0 ≤ (m' ((c.tc : Thread Cert.ReferenceIdeal.nD Cert.ReferenceIdeal.τ).loc Cert.ReferenceIdeal.main_arg0) r).toInt
        ∧ (m' ((c.tc : Thread Cert.ReferenceIdeal.nD Cert.ReferenceIdeal.τ).loc Cert.ReferenceIdeal.main_arg0) r).toInt ≤ 999 := fun c r => by
    rw [(hagree c).1]
    exact Cert.PreRange.idx_range (F := Ideal) _ _ (hpre c) r
  refine (θ_run (Cert.ReferenceIdeal.defs (F := Ideal)) _ _).mono (fun _ h c => ⟨(h c).1.trans ?_, (h c).2.1, (h c).2.2⟩)
    (Cert.ReferenceIdeal.RefValue.run m' g' hx')
  rw [(hagree c).1, (hagree c).2]

theorem claim : Cert.Claim :=
  ⟨Cert.Kernel.Gen.facts, Cert.KernelIdeal.Gen.facts, Cert.ReferenceIdeal.Gen.facts, Cert.Pre_input_domain.Gen.facts,
    frame_p, frame_pi, frame_ri, preserves, algebraic⟩

end Cert.Proof

end
